-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S5000x256 : Shape := ⟨2, ![5000, 256]⟩
abbrev S5000x128 : Shape := ⟨2, ![5000, 128]⟩
abbrev S1650000x128 : Shape := ⟨2, ![1650000, 128]⟩
abbrev S50000x64 : Shape := ⟨2, ![50000, 64]⟩
abbrev S5000x64 : Shape := ⟨2, ![5000, 64]⟩
abbrev S1x128 : Shape := ⟨2, ![1, 128]⟩
abbrev S1650000x64 : Shape := ⟨2, ![1650000, 64]⟩
abbrev S10000x64 : Shape := ⟨2, ![10000, 64]⟩
abbrev S1x64 : Shape := ⟨2, ![1, 64]⟩

abbrev nBuf : Space → Nat
  | .hbm => 81
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S50000x64, .f32⟩
  | .hbm, ⟨64, _⟩ => ⟨S_, .i32⟩
  | .hbm, ⟨65, _⟩ => ⟨S1650000, .i32⟩
  | .hbm, ⟨66, _⟩ => ⟨S1650000, .i1⟩
  | .hbm, ⟨67, _⟩ => ⟨S_, .i32⟩
  | .hbm, ⟨68, _⟩ => ⟨S1650000, .i32⟩
  | .hbm, ⟨69, _⟩ => ⟨S1650000, .i32⟩
  | .hbm, ⟨70, _⟩ => ⟨S1650000, .i32⟩
  | .hbm, ⟨71, _⟩ => ⟨S1650000x1, .i32⟩
  | .hbm, ⟨72, _⟩ => ⟨S1650000x64, .f32⟩
  | .hbm, ⟨73, _⟩ => ⟨S1650000x1, .f32⟩
  | .hbm, ⟨74, _⟩ => ⟨S1650000x64, .f32⟩
  | .hbm, ⟨75, _⟩ => ⟨S1650000x64, .f32⟩
  | .hbm, ⟨76, _⟩ => ⟨S_, .f32⟩
  | .hbm, ⟨77, _⟩ => ⟨S50000x64, .f32⟩
  | .hbm, ⟨78, _⟩ => ⟨S1650000x1, .i32⟩
  | .hbm, ⟨79, _⟩ => ⟨S50000x64, .f32⟩
  | .hbm, ⟨80, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S10000x64, .f32⟩
  | .local _ .vmem, ⟨12, _⟩ => ⟨S10000x64, .f32⟩
  | .local _ .vmem, ⟨13, _⟩ => ⟨S64, .f32⟩
  | .local _ .vmem, ⟨14, _⟩ => ⟨S10000x64, .f32⟩
  | .local _ .vmem, ⟨15, _⟩ => ⟨S10000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x256_S256x128_S5000x128_1_0_0_1_n_n_wf : DotDims.WF S5000x256 S256x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S1650000, .i32⟩
  | .hbm, ⟨72, _⟩ => ⟨S1650000, .i1⟩
  | .hbm, ⟨73, _⟩ => ⟨S_, .i32⟩
  | .hbm, ⟨74, _⟩ => ⟨S1650000, .i32⟩
  | .hbm, ⟨75, _⟩ => ⟨S1650000, .i32⟩
  | .hbm, ⟨76, _⟩ => ⟨S1650000, .i32⟩
  | .hbm, ⟨77, _⟩ => ⟨S1650000x1, .i32⟩
  | .hbm, ⟨78, _⟩ => ⟨S1650000x64, .f32⟩
  | .hbm, ⟨79, _⟩ => ⟨S1650000x1, .f32⟩
  | .hbm, ⟨80, _⟩ => ⟨S1650000x64, .f32⟩
  | .hbm, ⟨81, _⟩ => ⟨S1650000x64, .f32⟩
  | .hbm, ⟨82, _⟩ => ⟨S_, .f32⟩
  | .hbm, ⟨83, _⟩ => ⟨S50000x64, .f32⟩
  | .hbm, ⟨84, _⟩ => ⟨S1650000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x256_S256x128_S50000x128_1_0_0_1_n_n_wf : DotDims.WF S50000x256 S256x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.KernelRun.lean ====
/-
  The idealized kernel's run with its result named.

  The program's run is a chain of segments — a stretch of host operations, then a region, and so on — and the thread
  state carried through the chain fixes every buffer's contents at each boundary. After the last region every
  buffer, the result among them, holds the last boundary's contents: so every weakly fair execution terminates with
  the result array at that boundary's value and the argument arrays as launched.
-/
import proofs.«173267_j79946521248145_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and every argument array as launched. -/
theorem run_named : θ_run defs (onTc (τ := τ) (main (F := F))) ⟨m, fun _ => 0, ρ⟩ (fun r => ∀ c : Dev nD,
      r.2.mem ((c.tc : Thread nD τ).loc main_v58) = W8 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v58 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Named

end
-- ==== Proof.Layers.lean ====
/-
  The three dense stages of a two-layer graph convolution, as whole-array functions at the extended reals.

  Between the edge aggregations the network applies, to a table of node features, (1) a plain product with a weight
  table, (2) a bias row added, the result clamped below at zero, and a second product, (3) a bias row added. Each is
  written here entry by entry: entry (r, q) of a product is the finite sum over the contracted coordinate k of the
  left entry (r, k) times the right entry (k, q); a bias row is added to every row of the table alike. Nothing is
  rounded at the extended reals, so a program that computes these entries a block of rows at a time and one that
  computes them over the whole table hold the same numbers.
-/
import Idealize.ShloMosaic.PureOps.Ideal
import Idealize.ShloMosaic.Lib.ValueIdx

noncomputable section

open scoped BigOperators

namespace Cert.Layers

open Idealize.ShloMosaic Idealize.ShloMosaic.ValueIdx

variable {M K N : Nat}

/-- The product of a table [M, K] with a table [K, N]: entry (r, q) is the sum over k of x (r, k) · w (k, q). -/
def dense (x : FVec Ideal ⟨2, ![M, K]⟩ .f32) (w : FVec Ideal ⟨2, ![K, N]⟩ .f32) : FVec Ideal ⟨2, ![M, N]⟩ .f32 :=
  fun j => ∑ k : Fin K, x (ix2 (n0 := M) (j 0) k) * w (ix2 (n1 := N) k (j 1))

theorem dense_apply (x : FVec Ideal ⟨2, ![M, K]⟩ .f32) (w : FVec Ideal ⟨2, ![K, N]⟩ .f32) (r : Fin M) (q : Fin N) :
    dense x w (ix2 r q) = ∑ k : Fin K, x (ix2 r k) * w (ix2 k q) := rfl

/-- The bias row b added to every row of a, the sum clamped below at the zero word, and the product of that with w:
    entry (r, q) is the sum over k of max (a (r, k) + b k) 0 · w (k, q). -/
def biasReluDense (a : FVec Ideal ⟨2, ![M, K]⟩ .f32) (b : FVec Ideal ⟨1, ![K]⟩ .f32) (w : FVec Ideal ⟨2, ![K, N]⟩ .f32) :
    FVec Ideal ⟨2, ![M, N]⟩ .f32 :=
  fun j => ∑ k : Fin K,
    FloatOps.maximumf (FloatOps.addf (a (ix2 (n0 := M) (j 0) k)) (b (ix1 k))) (Ideal.ofBits .f32 0x00000000#32)
      * w (ix2 (n1 := N) k (j 1))

theorem biasReluDense_apply (a : FVec Ideal ⟨2, ![M, K]⟩ .f32) (b : FVec Ideal ⟨1, ![K]⟩ .f32)
    (w : FVec Ideal ⟨2, ![K, N]⟩ .f32) (r : Fin M) (q : Fin N) :
    biasReluDense a b w (ix2 r q)
      = ∑ k : Fin K, FloatOps.maximumf (FloatOps.addf (a (ix2 r k)) (b (ix1 k))) (Ideal.ofBits .f32 0x00000000#32)
          * w (ix2 k q) := rfl

/-- The bias row b added to every row of a: entry (r, q) is a (r, q) + b q. -/
def addBias (a : FVec Ideal ⟨2, ![M, N]⟩ .f32) (b : FVec Ideal ⟨1, ![N]⟩ .f32) : FVec Ideal ⟨2, ![M, N]⟩ .f32 :=
  fun j => FloatOps.addf (a j) (b (ix1 (j 1)))

theorem addBias_apply (a : FVec Ideal ⟨2, ![M, N]⟩ .f32) (b : FVec Ideal ⟨1, ![N]⟩ .f32) (r : Fin M) (q : Fin N) :
    addBias a b (ix2 r q) = FloatOps.addf (a (ix2 r q)) (b (ix1 q)) := rfl

end Cert.Layers

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.Region0.lean ====
/-
  Region 0 of the two-layer graph convolution: the first dense stage, computed a block of rows at a time.

  The region walks a grid of ten points. At point t it reads rows 5000·t … 5000·t + 4999 of the node-feature table
  x [50000, 256] and the whole weight table w [256, 128], forms the product of the block with w into a zero
  accumulator, and writes the [5000, 128] result back as rows 5000·t … 5000·t + 4999 of the output. At the extended
  reals a change of float format is the identity and the product's entry (p, q) is the finite sum over k of
  x-block (p, k) · w (k, q); row p of block t is row 5000·t + p of x, so what point t writes back is block t of the
  whole product x · w. The ten blocks cover every row (row r lies in block r / 5000), so the output array ends
  holding the whole product.
-/
import proofs.«173267_j79946521248145_1_alg».proof.Proof.Gen.KernelIdeal.Frame
import proofs.«173267_j79946521248145_1_alg».proof.Proof.Layers
import proofs.«173267_j79946521248145_1_alg».proof.Proof.LibTileMatmul
import Idealize.ShloMosaic.Lib.Pipeline.Value
import Idealize.ShloMosaic.Lib.ValueIdx

noncomputable section
open Idealize.ShloMosaic Idealize.ShloMosaic.TcCoe Idealize.SL.Sem
open Idealize.ShloMosaic.Pipeline (Dat)
namespace Cert.KernelIdeal.Region0
open Cert.KernelIdeal Cert.KernelIdeal.Gen Idealize.ShloMosaic.ValueIdx

/-- The two zero offsets, as the constant function. -/
theorem zero_offsets : (![0, 0] : Fin 2 → Nat) = fun _ => 0 := funext fun a => by fin_cases a <;> rfl

/-- The body's payload at entry (p, q): the sum over k of the left block's (p, k) times the right block's (k, q). -/
theorem payload_apply (x : Vec Ideal S5000x256 .f32) (w : Vec Ideal S256x128 .f32) (p : Fin 5000) (q : Fin 128) :
    k0_pay1 (F := Ideal) x w (ix2 p q) = ∑ k : Fin 256, x (ix2 p k) * w (ix2 k q) := by
  unfold k0_pay1
  exact TileMatmul.matmul_zero_apply dot_S5000x256_S256x128_S5000x128_1_0_0_1_n_n_wf none
    (truncf .bf16 x bitsLt_bf16_f32) (truncf .bf16 w bitsLt_bf16_f32) p q

/-- What the body leaves in the output window's buffer, at entry (p, q). -/
theorem out_apply (x : Vec Ideal S5000x256 .f32) (w : Vec Ideal S256x128 .f32) (p : Fin 5000) (q : Fin 128) :
    out0_2 (F := Ideal) x w (ix2 p q) = ∑ k : Fin 256, x (ix2 p k) * w (ix2 k q) := by
  unfold out0_2
  rw [View.canon_unit_zero zero_offsets]
  simp only [View.ld_unit_zero (S := S5000x256) zero_offsets, View.ld_unit_zero (S := S256x128) zero_offsets]
  exact payload_apply x w p q

/-- The printed index maps over the grid: the row-block index of the left operand's and of the output's window is the
    grid point itself, every other block index is zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A grid point is below ten. -/
theorem point_lt (t : Fin cfg0.N) : t.val < 10 := N_0 ▸ t.isLt

/-- Row p of the left operand's block at point t is row 5000·t + p of the array. -/
theorem left_block_apply (V : (c : Dev nD) → (b : Ref sig .tc) → Buf (Elt Ideal) ((c : Thread nD τ).loc b)) (c : Dev nD)
    (t : Fin cfg0.N) (p : Fin 5000) (k : Fin 256) (r : Fin 50000) (hr : r.val = t.val * 5000 + p.val) :
    iblk0 (F := Ideal) V c 0 t (ix2 p k) = V c main_arg0 (ix2 r k) := by
  obtain ⟨e0, e1, -, -, -, -⟩ := index_facts t
  show V c main_arg0 (((cfg0.win 0).blk t).view.emb (ix2 p k)) = V c main_arg0 (ix2 r k)
  congr 1
  funext a; apply Fin.ext
  match a with
  | ⟨0, _⟩ => show win0_0.index t (0 : Fin 2) * 5000 + 1 * p.val = r.val; omega
  | ⟨1, _⟩ => show win0_0.index t (1 : Fin 2) * 256 + 1 * k.val = k.val; omega

/-- The right operand's block at every point is the whole array. -/
theorem right_block_apply (V : (c : Dev nD) → (b : Ref sig .tc) → Buf (Elt Ideal) ((c : Thread nD τ).loc b)) (c : Dev nD)
    (t : Fin cfg0.N) (k : Fin 256) (q : Fin 128) :
    iblk0 (F := Ideal) V c 1 t (ix2 k q) = V c main_arg2 (ix2 k q) := by
  obtain ⟨-, -, e0, e1, -, -⟩ := index_facts t
  show V c main_arg2 (((cfg0.win 1).blk t).view.emb (ix2 k q)) = V c main_arg2 (ix2 k q)
  congr 1
  funext a; apply Fin.ext
  match a with
  | ⟨0, _⟩ => show win0_1.index t (0 : Fin 2) * 256 + 1 * k.val = k.val; omega
  | ⟨1, _⟩ => show win0_1.index t (1 : Fin 2) * 128 + 1 * q.val = q.val; omega

/-- What point t writes back to the output array is block t of the whole product of the two arrays the region found. -/
theorem flushed_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal)
          (Cert.Layers.dense (M := 50000) (K := 256) (N := 128) (V c main_arg0) (V c main_arg2)) := by
  show (cfg0.win 2).cut (grid0.coords t) ((dat0 (F := Ideal) V c).after 2 t) = _
  rw [after0_2]
  funext j
  obtain ⟨p, q, rfl⟩ : ∃ (p : Fin 5000) (q : Fin 128), j = ix2 p q := ⟨j 0, j 1, eq_ix2 j⟩
  have ht := point_lt t
  obtain ⟨-, -, -, -, e0, e1⟩ := index_facts t
  -- the array row under row p of block t
  let r : Fin 50000 := ⟨t.val * 5000 + p.val, by have := p.isLt; omega⟩
  have hemb : ((cfg0.win 2).blk t).view.emb (ix2 p q) = ix2 r q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show out0_2 (F := Ideal) (iblk0 V c 0 t) (iblk0 V c 1 t) (ix2 p q)
    = Cert.Layers.dense (M := 50000) (K := 256) (N := 128) (V c main_arg0) (V c main_arg2)
        (((cfg0.win 2).blk t).view.emb (ix2 p q))
  rw [hemb, out_apply, Cert.Layers.dense_apply]
  refine Finset.sum_congr rfl fun k _ => ?_
  rw [left_block_apply V c t p k r rfl, right_block_apply V c t k q]

/-- An index of the output array is in point t's block iff each coordinate is in the block's range on its axis. -/
theorem mem_blk (t : Fin cfg0.N) (i : S50000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v30).slice (win0_2.rect t)).set ↔ _
  rw [View.set_slice_whole, Rect.mem_set_unit]
  exact Iff.rfl

/-- Every block index 0 … 9 is some grid point's. -/
theorem index_onto : ∀ b : Fin 10, ∃ t : Fin cfg0.N, win0_2.index t = ![b.val, 0] :=
  (by decide +kernel : ∀ b : Fin 10, ∃ t : Fin grid0.N, win0_2.index t = ![b.val, 0])

/-- The ten blocks cover the output array: row r lies in block r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- Region 0's output array after the region: the product of the two arrays the region found, computed a block of
    5000 rows at a time, is the whole product. -/
theorem final (V : (c : Dev nD) → (b : Ref sig .tc) → Buf (Elt Ideal) ((c : Thread nD τ).loc b)) (c : Dev nD) :
    (dat0 (F := Ideal) V c).arrAt 2 cfg0.N
      = Cert.Layers.dense (M := 50000) (K := 256) (N := 128) (V c main_arg0) (V c main_arg2) :=
  (dat0 (F := Ideal) V c).arrAt_eq_of_cover 2
    (Cert.Layers.dense (M := 50000) (K := 256) (N := 128) (V c main_arg0) (V c main_arg2))
    (fun t _ => flushed_eq V c t) cover

end Cert.KernelIdeal.Region0
end
-- ==== Proof.LibRowBias.lean ====
/-
  A vector laid out as a one-row table.

  Reshaping a vector of length n to the table [1, n] moves no element: the table's one row is the vector.  So the
  table read at row 0, column k is the vector's entry k.  This is how a bias vector reaches a kernel that takes its
  bias as a [1, n] row.
-/
import Idealize.ShloMosaic.Lib.ValueIdx
import Idealize.ShloMosaic.Lib.ValueLayout

namespace Cert.LibRowBias

open Idealize.ShloMosaic Idealize.ShloMosaic.ValueIdx

/-- A length-n vector laid out as a one-row table reads, at the row's one coordinate u and column k, the vector's
    entry k. -/
theorem row_of_vec_apply_at {n : ℕ} {α : Type} (b : (⟨1, ![n]⟩ : Shape).Idx → α)
    (h : (⟨1, ![n]⟩ : Shape).ShapeCasts ⟨2, ![1, n]⟩) (u : Fin 1) (k : Fin n) :
    shapeCast (⟨2, ![1, n]⟩ : Shape) b h (ix2 u k) = b (ix1 k) :=
  shapeCast_a_1a_apply b h u k

/-- A length-n vector laid out as a one-row table reads, at row 0 and column k, the vector's entry k. -/
theorem row_of_vec_apply {n : ℕ} {α : Type} (b : (⟨1, ![n]⟩ : Shape).Idx → α)
    (h : (⟨1, ![n]⟩ : Shape).ShapeCasts ⟨2, ![1, n]⟩) (k : Fin n) :
    shapeCast (⟨2, ![1, n]⟩ : Shape) b h (ix2 (0 : Fin 1) k) = b (ix1 k) :=
  row_of_vec_apply_at b h 0 k

end Cert.LibRowBias
-- ==== Proof.Region1.lean ====
/-
  The middle stage of the two-layer graph convolution, a block of rows at a time, is the whole-table stage.

  The region walks the 50000 rows of the feature table in ten blocks of 5000. On each block it adds the bias vector
  to every row, clamps the sums below at zero, and multiplies by the 128 × 64 weight table; the block of 5000 result
  rows is written to the same rows of the result table. At the extended reals nothing is rounded, so entry (p, q) of
  a block's result is the sum over k of max (x (p, k) + b k) 0 · w (k, q), which mentions row p of the block only.
  Row p of block t is row t · 5000 + p of the table, the bias vector and the weight table are the same at every
  block, and every row r of the table lies in block r / 5000: so the result table ends holding, at every (r, q), the
  sum over k of max (a (r, k) + b k) 0 · w (k, q).
-/
import proofs.«173267_j79946521248145_1_alg».proof.Proof.Gen.KernelIdeal.Frame
import proofs.«173267_j79946521248145_1_alg».proof.Proof.Layers
import proofs.«173267_j79946521248145_1_alg».proof.Proof.LibTileMatmul
import proofs.«173267_j79946521248145_1_alg».proof.Proof.LibRowBias
import Idealize.ShloMosaic.Lib.Pipeline.Value
import Idealize.ShloMosaic.Lib.ValueIdx
import Idealize.ShloMosaic.Lib.ValueLayout

noncomputable section
open Idealize.ShloMosaic Idealize.ShloMosaic.TcCoe Idealize.SL.Sem
open Idealize.ShloMosaic.Pipeline (Dat)
namespace Cert.KernelIdeal.Region1
open Cert.KernelIdeal Cert.KernelIdeal.Gen Idealize.ShloMosaic.ValueIdx

/-- The zero offsets of a whole-buffer access over two axes, however spelt. -/
theorem zero_offsets2 : (![0, 0] : Fin 2 → Nat) = fun _ => 0 := funext fun a => by fin_cases a <;> rfl

/-- The zero offset of a whole-buffer access over one axis. -/
theorem zero_offsets1 : (![0] : Fin 1 → Nat) = fun _ => 0 := funext fun a => by fin_cases a; rfl

/-- The body's result at row p, column q of a block: the sum over the 128 contracted coordinates k of
    max (x (p, k) + b k) 0 · w (k, q). The two roundings to the narrower format are the identity at the extended
    reals, the reshape of the block to its own shape moves nothing, and the bias vector laid out as one row and
    repeated down the 5000 rows reads the vector's entry k in every row. -/
theorem body_apply (x : Vec Ideal S5000x128 .f32) (b : Vec Ideal S128 .f32) (w : Vec Ideal S128x64 .f32)
    (p : Fin 5000) (q : Fin 64) :
    k1_pay1 (F := Ideal) x b w (ix2 p q)
      = ∑ k : Fin 128, FloatOps.maximumf (FloatOps.addf (x (ix2 p k)) (b (ix1 k))) (Ideal.ofBits .f32 0x00000000#32)
          * w (ix2 k q) := by
  unfold k1_pay1
  show matmul (F := Ideal) (TileMatmul.plainDims dot_S5000x128_S128x64_S5000x64_1_0_0_1_n_n_wf) none _ _ _ (ix2 p q) = _
  rw [TileMatmul.matmul_zero_apply]
  refine Finset.sum_congr rfl fun k _ => ?_
  rw [truncf_apply, truncf_apply, maximumf_apply, addf_apply, broadcast_apply, shapeCast_self,
    broadcastTo_1b_ab_apply, Cert.LibRowBias.row_of_vec_apply_at]
  rfl

/-- Where each window's block sits at grid point t: the feature table's and the result's blocks are block t of
    their rows and the only block of their columns; the bias vector and the weight table are whole. -/
theorem block_indices : ∀ t : Fin cfg1.N,
    win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The grid has ten points. -/
theorem point_lt (t : Fin cfg1.N) : t.val < 10 := lt_of_lt_of_eq t.isLt N_1

section Blocks
variable (V : (c : Dev nD) → (b : Ref sig .tc) → Buf (Elt Ideal) ((c : Thread nD τ).loc b)) (c : Dev nD)

/-- Row p, column k of the feature table's block at point t is row t · 5000 + p, column k of the table. -/
theorem features_block (t : Fin cfg1.N) (p : Fin 5000) (k : Fin 128) (r : Fin 50000) (hr : r.val = t.val * 5000 + p.val) :
    iblk1 (F := Ideal) V c 0 t (ix2 p k) = V c main_v43 (ix2 r k) := by
  obtain ⟨e0, e1, -, -, -, -, -⟩ := block_indices t
  show V c main_v43 (((cfg1.win 0).blk t).view.emb (ix2 p k)) = V c main_v43 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The bias vector's block at any point is the whole vector. -/
theorem bias_block (t : Fin cfg1.N) (k : Fin 128) :
    iblk1 (F := Ideal) V c 1 t (ix1 k) = V c main_arg3 (ix1 k) := by
  obtain ⟨-, -, e2, -, -, -, -⟩ := block_indices t
  show V c main_arg3 (((cfg1.win 1).blk t).view.emb (ix1 k)) = V c main_arg3 (ix1 k)
  refine congrArg _ (funext fun a => Fin.ext ?_)
  match a with
  | ⟨0, _⟩ => show win1_1.index t (0 : Fin 1) * 128 + 1 * k.val = k.val; omega

/-- The weight table's block at any point is the whole table. -/
theorem weights_block (t : Fin cfg1.N) (k : Fin 128) (q : Fin 64) :
    iblk1 (F := Ideal) V c 2 t (ix2 k q) = V c main_arg4 (ix2 k q) := by
  obtain ⟨-, -, -, e3, e4, -, -⟩ := block_indices t
  show V c main_arg4 (((cfg1.win 2).blk t).view.emb (ix2 k q)) = V c main_arg4 (ix2 k q)
  refine congrArg _ (funext fun a => Fin.ext ?_)
  match a with
  | ⟨0, _⟩ => show win1_2.index t (0 : Fin 2) * 128 + 1 * k.val = k.val; omega
  | ⟨1, _⟩ => show win1_2.index t (1 : Fin 2) * 64 + 1 * q.val = q.val; omega

/-- Row p, column q of the result's block at point t is row t · 5000 + p, column q of the result table. -/
theorem result_index (t : Fin cfg1.N) (p : Fin 5000) (q : Fin 64) (r : Fin 50000) (hr : r.val = t.val * 5000 + p.val) :
    ((cfg1.win 3).blk t).view.emb (ix2 p q) = ix2 r q := by
  obtain ⟨-, -, -, -, -, e5, e6⟩ := block_indices t
  refine funext fun a => Fin.ext ?_
  match a with
  | ⟨0, _⟩ => show win1_3.index t (0 : Fin 2) * 5000 + 1 * p.val = r.val; omega
  | ⟨1, _⟩ => show win1_3.index t (1 : Fin 2) * 64 + 1 * q.val = q.val; omega

/-- What point t writes back is block t of the whole-table result. -/
theorem written_block (t : Fin cfg1.N) :
    (dat1 (F := Ideal) V c).flushed 3 t
      = ((cfg1.win 3).blk t).view.read (Elt Ideal)
          (Cert.Layers.biasReluDense (M := 50000) (K := 128) (N := 64) (V c main_v43) (V c main_arg3) (V c main_arg4)) := by
  show (cfg1.win 3).cut (grid1.coords t) ((dat1 (F := Ideal) V c).after 3 t) = _
  rw [after1_3]
  unfold out1_3
  rw [View.canon_unit_zero zero_offsets2]
  simp only [View.ld_unit_zero (S := S5000x128) zero_offsets2, View.ld_unit_zero (S := S128) zero_offsets1,
    View.ld_unit_zero (S := S128x64) zero_offsets2]
  funext j
  obtain ⟨p, q, rfl⟩ : ∃ (p : Fin 5000) (q : Fin 64), j = ix2 p q := ⟨j 0, j 1, eq_ix2 j⟩
  have ht := point_lt t
  have hp := p.isLt
  obtain ⟨r, hr⟩ : ∃ r : Fin 50000, r.val = t.val * 5000 + p.val := ⟨⟨t.val * 5000 + p.val, by omega⟩, rfl⟩
  show k1_pay1 (F := Ideal) (iblk1 V c 0 t) (iblk1 V c 1 t) (iblk1 V c 2 t) (ix2 p q)
    = Cert.Layers.biasReluDense (M := 50000) (K := 128) (N := 64) (V c main_v43) (V c main_arg3) (V c main_arg4)
        (((cfg1.win 3).blk t).view.emb (ix2 p q))
  rw [body_apply, result_index t p q r hr, Cert.Layers.biasReluDense_apply]
  refine Finset.sum_congr rfl fun k _ => ?_
  rw [features_block V c t p k r hr, bias_block V c t k, weights_block V c t k q]

/-- An index of the result table is in point t's block iff each coordinate is in the block's range on its axis. -/
theorem mem_block (t : Fin cfg1.N) (i : S50000x64.Idx) :
    i ∈ ((cfg1.win 3).blk t).view.set
      ↔ ∀ a : Fin 2, win1_3.index t a * S5000x64.size a ≤ (i a).val
          ∧ (i a).val < win1_3.index t a * S5000x64.size a + S5000x64.size a := by
  show i ∈ ((View.whole main_v44).slice (win1_3.rect t)).set ↔ _
  rw [View.set_slice_whole, Rect.mem_set_unit]
  exact Iff.rfl

/-- Every row r of the result table is in the block of point r / 5000, which writes back. -/
theorem covered (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega) N_1.symm⟩, rfl⟩
  obtain ⟨-, -, -, -, -, e5, e6⟩ := block_indices t
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

end Blocks

/-- Region 1's output array after the region: bias row added, clamped at zero, multiplied by the second weight
    table, a block of 5000 rows at a time, is the whole-table result. -/
theorem final (V : (c : Dev nD) → (b : Ref sig .tc) → Buf (Elt Ideal) ((c : Thread nD τ).loc b)) (c : Dev nD) :
    (dat1 (F := Ideal) V c).arrAt 3 cfg1.N
      = Cert.Layers.biasReluDense (M := 50000) (K := 128) (N := 64) (V c main_v43) (V c main_arg3) (V c main_arg4) :=
  (dat1 (F := Ideal) V c).arrAt_eq_of_cover 3 _ (fun t _ => written_block V c t) covered

end Cert.KernelIdeal.Region1
end
-- ==== Proof.Region2.lean ====
/-
  The third dense stage of the network, a block of rows at a time.

  The region takes a table of 50000 rows and 64 columns and a bias vector of length 64. Its grid has five points;
  point t holds rows 10000 t … 10000 t + 9999 of the table and the whole bias vector, lays the vector out as a
  one-row table, repeats that row down the block, and adds: entry (p, q) of what it writes back is the table's entry
  (10000 t + p, q) plus the vector's entry q. That is block t of the whole table with the bias row added to every
  row, and the five blocks tile the 50000 rows, so after the region the output array is that table.
-/
import proofs.«173267_j79946521248145_1_alg».proof.Proof.Gen.KernelIdeal.Frame
import proofs.«173267_j79946521248145_1_alg».proof.Proof.Layers
import proofs.«173267_j79946521248145_1_alg».proof.Proof.LibRowBias
import Idealize.ShloMosaic.Lib.Pipeline.Value
import Idealize.ShloMosaic.Lib.ValueIdx

noncomputable section
open Idealize.ShloMosaic Idealize.ShloMosaic.TcCoe Idealize.SL.Sem
open Idealize.ShloMosaic.Pipeline (Dat)
namespace Cert.KernelIdeal.Region2
open Cert.KernelIdeal Cert.KernelIdeal.Gen Idealize.ShloMosaic.ValueIdx

/-! ## The body at one grid point -/

/-- The offsets of a whole two-axis block are zero on both axes. -/
theorem zero_offsets2 : (![0, 0] : Fin 2 → Nat) = fun _ => 0 := funext fun a => by fin_cases a <;> rfl

/-- The offset of a whole one-axis block is zero. -/
theorem zero_offsets1 : (![0] : Fin 1 → Nat) = fun _ => 0 := funext fun a => by fin_cases a <;> rfl

/-- The body's result at row p, column q of its block: the block's entry (p, q) plus the bias vector's entry q.
    The block is reshaped to its own shape (nothing moves); the vector becomes a one-row table whose row is then
    repeated down the block, so at (p, q) it reads the row's entry q, which is the vector's entry q. -/
theorem payload_apply (x0 : FVec Ideal S10000x64 .f32) (x1 : FVec Ideal S64 .f32) (p : Fin 10000) (q : Fin 64) :
    k2_pay1 (F := Ideal) x0 x1 (ix2 p q) = FloatOps.addf (x0 (ix2 p q)) (x1 (ix1 q)) := by
  unfold k2_pay1
  show FloatOps.addf (shapeCast S10000x64 x0 _ (ix2 p q))
      (broadcastTo S10000x64 (shapeCast S1x64 x1 _) _ (ix2 p q)) = _
  rw [shapeCast_self]
  rw [broadcastTo_apply _ _ (ix2 p q) (ix2 (0 : Fin 1) q) (by
    intro a
    match a with
    | ⟨0, _⟩ => rfl
    | ⟨1, _⟩ => rfl)]
  rw [Cert.LibRowBias.row_of_vec_apply_at]

/-- What the body leaves in the output block is that result: it loads both of its inputs whole and stores once,
    over the whole block. -/
theorem staged_eq_payload (x0 : FVec Ideal S10000x64 .f32) (x1 : FVec Ideal S64 .f32) :
    out2_2 (F := Ideal) x0 x1 = k2_pay1 (F := Ideal) x0 x1 := by
  unfold out2_2
  rw [View.canon_unit_zero zero_offsets2]
  simp only [View.ld_unit_zero (S := S10000x64) zero_offsets2, View.ld_unit_zero (S := S64) zero_offsets1]

/-! ## Where each block sits in its array -/

/-- The block indices at grid point t, decided over the five points: the table's block and the output's block are
    block t along the rows and block 0 along the columns; the bias vector's block is always block 0. -/
theorem block_index : ∀ t : Fin cfg2.N,
    win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- The grid has five points. -/
theorem point_lt (t : Fin cfg2.N) : t.val < 5 := by
  have h := t.isLt
  have e : cfg2.N = 5 := N_2
  omega

/-- Row p of grid point t's block is row 10000 t + p of the table. -/
def row (t : Fin cfg2.N) (p : Fin 10000) : Fin 50000 :=
  ⟨t.val * 10000 + p.val, by have := point_lt t; have := p.isLt; omega⟩

/-- Entry (p, q) of the output's block at point t is entry (10000 t + p, q) of the output array. -/
theorem out_block_at (t : Fin cfg2.N) (p : Fin 10000) (q : Fin 64) :
    (((cfg2.win 2).blk t).view.emb (ix2 p q) : S50000x64.Idx) = ix2 (row t p) q := by
  obtain ⟨-, -, -, e3, e4⟩ := block_index t
  funext a; apply Fin.ext
  match a with
  | ⟨0, _⟩ => show win2_2.index t (0 : Fin 2) * 10000 + 1 * p.val = t.val * 10000 + p.val; omega
  | ⟨1, _⟩ => show win2_2.index t (1 : Fin 2) * 64 + 1 * q.val = q.val; omega

/-- Entry (p, q) of the table's block at point t is entry (10000 t + p, q) of the table. -/
theorem in_block_at (t : Fin cfg2.N) (p : Fin 10000) (q : Fin 64) :
    (((cfg2.win 0).blk t).view.emb (ix2 p q) : S50000x64.Idx) = ix2 (row t p) q := by
  obtain ⟨e0, e1, -, -, -⟩ := block_index t
  funext a; apply Fin.ext
  match a with
  | ⟨0, _⟩ => show win2_0.index t (0 : Fin 2) * 10000 + 1 * p.val = t.val * 10000 + p.val; omega
  | ⟨1, _⟩ => show win2_0.index t (1 : Fin 2) * 64 + 1 * q.val = q.val; omega

/-- Entry q of the bias vector's block at any point is entry q of the vector: the block is the whole vector. -/
theorem bias_block_at (t : Fin cfg2.N) (q : Fin 64) :
    (((cfg2.win 1).blk t).view.emb (ix1 q) : S64.Idx) = ix1 q := by
  obtain ⟨-, -, e2, -, -⟩ := block_index t
  funext a; apply Fin.ext
  match a with
  | ⟨0, _⟩ => show win2_1.index t (0 : Fin 1) * 64 + 1 * q.val = q.val; omega

/-! ## From the blocks to the array -/

/-- What grid point t writes back is block t of the table with the bias row added to every row. -/
theorem flushed_eq (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal)
          (Cert.Layers.addBias (M := 50000) (N := 64) (V c main_v57) (V c main_arg5)) := by
  show (cfg2.win 2).cut (grid2.coords t) ((dat2 V c).after 2 t) = _
  rw [after2_2, staged_eq_payload]
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (ix2 p q)
      = Cert.Layers.addBias (M := 50000) (N := 64) (V c main_v57) (V c main_arg5)
          (((cfg2.win 2).blk t).view.emb (ix2 p q))
  refine (payload_apply (iblk2 V c 0 t) (iblk2 V c 1 t) p q).trans ?_
  rw [out_block_at, Cert.Layers.addBias_apply]
  show FloatOps.addf (F := Ideal) (φ := .f32) (V c main_v57 (((cfg2.win 0).blk t).view.emb (ix2 p q)))
      (V c main_arg5 (((cfg2.win 1).blk t).view.emb (ix1 q))) = _
  rw [in_block_at, bias_block_at]

/-- An index of the output array is in grid point t's block iff each coordinate is in the block's range on its axis. -/
theorem mem_block (t : Fin cfg2.N) (i : S50000x64.Idx) :
    i ∈ ((cfg2.win 2).blk t).view.set
      ↔ ∀ a : Fin 2, win2_2.index t a * S10000x64.size a ≤ (i a).val
          ∧ (i a).val < win2_2.index t a * S10000x64.size a + S10000x64.size a := by
  show i ∈ ((View.whole main_v58).slice (win2_2.rect t)).set ↔ _
  rw [View.set_slice_whole, Rect.mem_set_unit]
  exact Iff.rfl

/-- Row r of the output array is in the block of grid point r / 10000: the five blocks of 10000 rows tile the
    50000 rows, and every point writes its block back. -/
theorem blocks_cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 5 := N_2
  obtain ⟨t, ht⟩ : ∃ t : Fin cfg2.N, t.val = (i 0).val / 10000 := ⟨⟨(i 0).val / 10000, by omega⟩, rfl⟩
  obtain ⟨-, -, -, e3, e4⟩ := block_index t
  refine ⟨t, flush2_2 t, ?_⟩
  rw [mem_block]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- Region 2's output array after the region: the bias row added to every row, a block of 10000 rows at a time. -/
theorem final (V : (c : Dev nD) → (b : Ref sig .tc) → Buf (Elt Ideal) ((c : Thread nD τ).loc b)) (c : Dev nD) :
    (dat2 (F := Ideal) V c).arrAt 2 cfg2.N
      = Cert.Layers.addBias (M := 50000) (N := 64) (V c main_v57) (V c main_arg5) :=
  (dat2 (F := Ideal) V c).arrAt_eq_of_cover 2 _ (fun t _ => flushed_eq V c t) blocks_cover

end Cert.KernelIdeal.Region2
end
-- ==== Proof.Chain.lean ====
/-
  The edge side of the graph convolution, as pure functions of arrays.

  The edge list has two rows, the source and the destination node of each of the 1 600 000 edges; every node gets one
  more edge to itself, so both rows are followed by the node numbers 0 … 49 999. A node's degree is the number of
  edges that end in it; an edge's weight is the product of the inverse square roots of the degrees of its two ends
  (zero where the degree is not positive). One aggregation step gathers, for every edge, the feature row of its
  source node, scales it by the edge's weight, and adds it into the row of its destination node, starting from zero.
  A negative node number counts from the end, as array indexing has it.

  These are the host operations both programs apply around their dense stages; each is named here once, over any
  float interpretation, so that a proof carries an aggregation as one function of the table it aggregates and never
  opens it.
-/
import proofs.«173267_j79946521248145_1_alg».proof.KernelIdeal
import proofs.«173267_j79946521248145_1_alg».proof.Proof.Gen.KernelIdeal

noncomputable section

namespace Cert.KernelIdeal.Chain

open Cert.KernelIdeal Cert.KernelIdeal.Facts₀ Cert.KernelIdeal.Facts Idealize.ShloMosaic

variable {F : FTy → Type} [FloatOps F]

/-- The contents of an array of shape S and element type e. -/
abbrev Arr (F : FTy → Type) (S : Shape) (e : EltTy) : Type := (⟨S, e⟩ : BufTy).Contents (Elt F)

/-- A vector over the edges followed by a vector over the nodes. -/
def cat (a : Arr F S1600000 .i32) (b : Arr F S50000 .i32) : Arr F S1650000 .i32 :=
  concatenate S1650000 0 [⟨S1600000, a⟩, ⟨S50000, b⟩] concatenates_S1600000_S50000_S1650000_d0

/-- One row of the edge list, flattened. -/
def flat (row : Arr F S1x1600000 .i32) : Arr F S1600000 .i32 :=
  shapeCast S1600000 row shapeCasts_S1x1600000_S1600000

/-- The node numbers 0 … 49 999. -/
def nodes : Arr F S50000 .i32 := iotaInDim S50000 32 0

/-- One row of the edge list, flattened, followed by the node numbers (one self-loop per node). -/
def withLoops (row : Arr F S1x1600000 .i32) : Arr F S1650000 .i32 :=
  cat (flat row) nodes

/-- The source node of every edge, self-loops last. -/
def src (e : Arr F S2x1600000 .i32) : Arr F S1650000 .i32 :=
  withLoops (extractStridedSlice S1x1600000 ![0, 0] e slices_S2x1600000_S1x1600000_0_0)

/-- The destination node of every edge, self-loops last. -/
def dst (e : Arr F S2x1600000 .i32) : Arr F S1650000 .i32 :=
  withLoops (extractStridedSlice S1x1600000 ![1, 0] e slices_S2x1600000_S1x1600000_1_0)

/-- A negative node number counts from the end: s becomes s + 50000 where s < 0. -/
def wrap (s : Arr F S1650000 .i32) : Arr F S1650000 .i32 :=
  select (cmpi .slt s (broadcastInDim S1650000 ![] bcast_S_S1650000 (constantI S_ 32 0#32)))
    (addi s (broadcastInDim S1650000 ![] bcast_S_S1650000 (constantI S_ 32 50000#32))) s

/-- A vector over the edges laid as a one-column table. -/
def col {e : EltTy} (s : Arr F S1650000 e) : Arr F S1650000x1 e :=
  broadcastInDim S1650000x1 ![0] bcast_S1650000_S1650000x1_0 s

/-- The degree of every node: one added, from zero, at the destination of every edge. -/
def deg (d : Arr F S1650000 .i32) : Arr F S50000 .f32 :=
  Host.scatterAdd scatter_S50000_S1650000x1_S1650000_n_0_0_1
    (broadcastInDim S50000 ![] bcast_S_S50000 (constant S_ .f32 0x00000000#32)) (col d)
    (broadcastInDim S1650000 ![] bcast_S_S1650000 (constant S_ .f32 0x3F800000#32))

/-- The inverse square root of every node's degree, zero where the degree is not positive. -/
def dinv (d : Arr F S1650000 .i32) : Arr F S50000 .f32 :=
  select (cmpf .ogt (deg d) (broadcastInDim S50000 ![] bcast_S_S50000 (constant S_ .f32 0x00000000#32)))
    (Host.rsqrt (deg d)) (broadcastInDim S50000 ![] bcast_S_S50000 (constant S_ .f32 0x00000000#32))

/-- The weight of every edge: the product of its two ends' inverse square root degrees. -/
def nrm (s d : Arr F S1650000 .i32) : Arr F S1650000 .f32 :=
  mulf (Host.gather gather_S50000_S1650000x1_S1650000_n_0_n_n_0_1_1 (dinv d) (col (wrap s)))
    (Host.gather gather_S50000_S1650000x1_S1650000_n_0_n_n_0_1_1 (dinv d) (col (wrap d)))

/-- One aggregation over tables of 128 columns: every edge's source row, scaled by the edge's weight, added from
    zero into its destination row. -/
def agg128 (h : Arr F S50000x128 .f32) (s d : Arr F S1650000 .i32) (n : Arr F S1650000 .f32) : Arr F S50000x128 .f32 :=
  Host.scatterAdd scatter_S50000x128_S1650000x1_S1650000x128_1_0_0_1
    (broadcastInDim S50000x128 ![] bcast_S_S50000x128 (constant S_ .f32 0x00000000#32)) (col d)
    (mulf (Host.gather gather_S50000x128_S1650000x1_S1650000x128_1_0_n_n_0_1_1128 h (col (wrap s)))
      (broadcastInDim S1650000x128 ![0, 1] bcast_S1650000x1_S1650000x128_0_1 (col n)))

/-- The same aggregation over tables of 64 columns. -/
def agg64 (h : Arr F S50000x64 .f32) (s d : Arr F S1650000 .i32) (n : Arr F S1650000 .f32) : Arr F S50000x64 .f32 :=
  Host.scatterAdd scatter_S50000x64_S1650000x1_S1650000x64_1_0_0_1
    (broadcastInDim S50000x64 ![] bcast_S_S50000x64 (constant S_ .f32 0x00000000#32)) (col d)
    (mulf (Host.gather gather_S50000x64_S1650000x1_S1650000x64_1_0_n_n_0_1_164 h (col (wrap s)))
      (broadcastInDim S1650000x64 ![0, 1] bcast_S1650000x1_S1650000x64_0_1 (col n)))

end Cert.KernelIdeal.Chain

end
-- ==== Proof.KStretches.lean ====
/-
  The kernel program's host stretches, read as functions of the buffers they start from.

  Between its regions the program runs stretches of host operations. From ANY contents W of the buffers, the stretch
  before the first region leaves the two rows of edge ends (self-loops appended) and the edge weights, and each later
  stretch leaves one aggregation of the table the region before it wrote; no stretch touches an argument array, and
  the later ones keep the edge ends and weights. The contents are a variable here, so nothing is evaluated: each
  statement is the stretch's operations composed, named by the functions of the edge side.
-/
import proofs.«173267_j79946521248145_1_alg».proof.Proof.Gen.KernelIdeal.Launch
import proofs.«173267_j79946521248145_1_alg».proof.Proof.Chain
import Idealize.ShloMosaic.Lib.StableHlo.Run
import Idealize.ShloMosaic.Lib.Pipeline.Frame

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F] (W : Valuation τ sig (Elt F))

/-! ## The stretch before the first region, in three runs

Each row of edge ends is laid end to end with the node numbers. The stretch is read as three runs in a row, each
from the contents the run before it leaves: a run's result is a function of the buffers it starts from. -/

/-- The node numbers, and the first row of the edge list sliced and flattened. -/
abbrev firstRow : List (HloOp τ sig (Elt F)) :=
  [ StableHlo.nullary main_v0 (iotaInDim S50000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000 ]

/-- The first row joined with the node numbers; the second row sliced and flattened. -/
abbrev secondRow : List (HloOp τ sig (Elt F)) :=
  [ StableHlo.binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000 ]

/-- The second row joined with the node numbers; the degrees, their sign test and their inverse square roots. -/
abbrev degrees : List (HloOp τ sig (Elt F)) :=
  [ StableHlo.binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.nullary main_cst (constant S_ .f32 0x3F800000#32),
    StableHlo.unary main_cst main_v7 (broadcastInDim S1650000 ![] bcast_S_S1650000 : (⟨S_, .f32⟩ : BufTy).Contents (Elt F) → (⟨S1650000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S1650000x1 ![0] bcast_S1650000_S1650000x1_0 : (⟨S1650000, .i32⟩ : BufTy).Contents (Elt F) → (⟨S1650000x1, .i32⟩ : BufTy).Contents (Elt F)),
    StableHlo.ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]

/-- The first stretch is the three runs in a row. -/
theorem hostOps0_cut : (hostOps0 : List (HloOp τ sig (Elt F))) = firstRow ++ (secondRow ++ degrees) := rfl

theorem firstRow_v2 : StableHlo.after firstRow W (Proc.devRef .tc main_v2) = Chain.flat (extractStridedSlice S1x1600000 ![0, 0] (W (Proc.devRef .tc main_arg1)) slices_S2x1600000_S1x1600000_0_0) := by
  after_results_simp
  rfl
theorem firstRow_v0 : StableHlo.after firstRow W (Proc.devRef .tc main_v0) = Chain.nodes := by
  after_results_simp
  rfl
theorem firstRow_arg1 : StableHlo.after firstRow W (Proc.devRef .tc main_arg1) = W (Proc.devRef .tc main_arg1) := by
  after_results_simp

theorem secondRow_v3 : StableHlo.after secondRow W (Proc.devRef .tc main_v3) = Chain.cat (W (Proc.devRef .tc main_v2)) (W (Proc.devRef .tc main_v0)) := by
  after_results_simp
  rfl
theorem secondRow_v5 : StableHlo.after secondRow W (Proc.devRef .tc main_v5) = Chain.flat (extractStridedSlice S1x1600000 ![1, 0] (W (Proc.devRef .tc main_arg1)) slices_S2x1600000_S1x1600000_1_0) := by
  after_results_simp
  rfl
theorem secondRow_v0 : StableHlo.after secondRow W (Proc.devRef .tc main_v0) = W (Proc.devRef .tc main_v0) := by
  after_results_simp

theorem degrees_v6 : StableHlo.after degrees W (Proc.devRef .tc main_v6) = Chain.cat (W (Proc.devRef .tc main_v5)) (W (Proc.devRef .tc main_v0)) := by
  after_results_simp
  rfl
theorem degrees_v3 : StableHlo.after degrees W (Proc.devRef .tc main_v3) = W (Proc.devRef .tc main_v3) := by
  after_results_simp
theorem degrees_v12 : StableHlo.after degrees W (Proc.devRef .tc main_v12) = cmpf .ogt (Chain.deg (Chain.cat (W (Proc.devRef .tc main_v5)) (W (Proc.devRef .tc main_v0)))) (broadcastInDim S50000 ![] bcast_S_S50000 (constant S_ .f32 0x00000000#32)) := by
  after_results_simp
  rfl
theorem degrees_v13 : StableHlo.after degrees W (Proc.devRef .tc main_v13) = Host.rsqrt (Chain.deg (Chain.cat (W (Proc.devRef .tc main_v5)) (W (Proc.devRef .tc main_v0)))) := by
  after_results_simp
  rfl
theorem degrees_cst_2 : StableHlo.after degrees W (Proc.devRef .tc main_cst_2) = constant S_ .f32 0x00000000#32 := by
  after_results_simp

/-! ## The first stretch whole -/

theorem first_v3 : StableHlo.after hostOps0 W (Proc.devRef .tc main_v3) = Chain.src (W (Proc.devRef .tc main_arg1)) := by
  rw [hostOps0_cut, StableHlo.after_append, StableHlo.after_append, degrees_v3, secondRow_v3, firstRow_v2, firstRow_v0]
  rfl
theorem first_v6 : StableHlo.after hostOps0 W (Proc.devRef .tc main_v6) = Chain.dst (W (Proc.devRef .tc main_arg1)) := by
  rw [hostOps0_cut, StableHlo.after_append, StableHlo.after_append, degrees_v6, secondRow_v5, secondRow_v0, firstRow_arg1,
    firstRow_v0]
  rfl
theorem first_v12 : StableHlo.after hostOps0 W (Proc.devRef .tc main_v12) = cmpf .ogt (Chain.deg (Chain.dst (W (Proc.devRef .tc main_arg1)))) (broadcastInDim S50000 ![] bcast_S_S50000 (constant S_ .f32 0x00000000#32)) := by
  rw [hostOps0_cut, StableHlo.after_append, StableHlo.after_append, degrees_v12, secondRow_v5, secondRow_v0, firstRow_arg1,
    firstRow_v0]
  rfl
theorem first_v13 : StableHlo.after hostOps0 W (Proc.devRef .tc main_v13) = Host.rsqrt (Chain.deg (Chain.dst (W (Proc.devRef .tc main_arg1)))) := by
  rw [hostOps0_cut, StableHlo.after_append, StableHlo.after_append, degrees_v13, secondRow_v5, secondRow_v0, firstRow_arg1,
    firstRow_v0]
  rfl
theorem first_cst_2 : StableHlo.after hostOps0 W (Proc.devRef .tc main_cst_2) = constant S_ .f32 0x00000000#32 := by
  rw [hostOps0_cut, StableHlo.after_append, StableHlo.after_append, degrees_cst_2]

/-! ## The inlined choice between the inverse square root and zero -/

theorem choice_v14 : StableHlo.after hostOps0_1 W (Proc.devRef .tc main_v14)
    = select (W (Proc.devRef .tc main_v12)) (W (Proc.devRef .tc main_v13)) (broadcastInDim S50000 ![] bcast_S_S50000 (W (Proc.devRef .tc main_cst_2))) := by
  after_results_simp
  simp only [TRef.toBuf, TRef.ofBuf, cast_eq, id]
theorem choice_v3 : StableHlo.after hostOps0_1 W (Proc.devRef .tc main_v3) = W (Proc.devRef .tc main_v3) := by
  after_results_simp
theorem choice_v6 : StableHlo.after hostOps0_1 W (Proc.devRef .tc main_v6) = W (Proc.devRef .tc main_v6) := by
  after_results_simp

/-! ## The edge weights from the inverse square roots -/

theorem weights_v29 : StableHlo.after hostOps0_2 W (Proc.devRef .tc main_v29)
    = mulf (Host.gather gather_S50000_S1650000x1_S1650000_n_0_n_n_0_1_1 (W (Proc.devRef .tc main_v14)) (Chain.col (Chain.wrap (W (Proc.devRef .tc main_v3)))))
        (Host.gather gather_S50000_S1650000x1_S1650000_n_0_n_n_0_1_1 (W (Proc.devRef .tc main_v14)) (Chain.col (Chain.wrap (W (Proc.devRef .tc main_v6))))) := by
  after_results_simp
  rfl
theorem weights_v3 : StableHlo.after hostOps0_2 W (Proc.devRef .tc main_v3) = W (Proc.devRef .tc main_v3) := by
  after_results_simp
theorem weights_v6 : StableHlo.after hostOps0_2 W (Proc.devRef .tc main_v6) = W (Proc.devRef .tc main_v6) := by
  after_results_simp

/-- The buffers after the three stretches that precede the first region, from contents W. -/
abbrev pre : Valuation τ sig (Elt F) :=
  StableHlo.after hostOps0_2 (StableHlo.after hostOps0_1 (StableHlo.after hostOps0 W))

theorem pre_src : pre W (Proc.devRef .tc main_v3) = Chain.src (W (Proc.devRef .tc main_arg1)) := by
  show StableHlo.after hostOps0_2 (StableHlo.after hostOps0_1 (StableHlo.after hostOps0 W)) _ = _
  rw [weights_v3, choice_v3, first_v3]
theorem pre_dst : pre W (Proc.devRef .tc main_v6) = Chain.dst (W (Proc.devRef .tc main_arg1)) := by
  show StableHlo.after hostOps0_2 (StableHlo.after hostOps0_1 (StableHlo.after hostOps0 W)) _ = _
  rw [weights_v6, choice_v6, first_v6]
theorem pre_nrm : pre W (Proc.devRef .tc main_v29)
    = Chain.nrm (Chain.src (W (Proc.devRef .tc main_arg1))) (Chain.dst (W (Proc.devRef .tc main_arg1))) := by
  show StableHlo.after hostOps0_2 (StableHlo.after hostOps0_1 (StableHlo.after hostOps0 W)) _ = _
  rw [weights_v29, choice_v14, choice_v3, choice_v6, first_v12, first_v13, first_cst_2, first_v3, first_v6]
  rfl
theorem pre_arg0 : pre W (Proc.devRef .tc main_arg0) = W (Proc.devRef .tc main_arg0) := by
  show StableHlo.after hostOps0_2 (StableHlo.after hostOps0_1 (StableHlo.after hostOps0 W)) _ = _
  after_results_simp
theorem pre_arg2 : pre W (Proc.devRef .tc main_arg2) = W (Proc.devRef .tc main_arg2) := by
  show StableHlo.after hostOps0_2 (StableHlo.after hostOps0_1 (StableHlo.after hostOps0 W)) _ = _
  after_results_simp
theorem pre_arg3 : pre W (Proc.devRef .tc main_arg3) = W (Proc.devRef .tc main_arg3) := by
  show StableHlo.after hostOps0_2 (StableHlo.after hostOps0_1 (StableHlo.after hostOps0 W)) _ = _
  after_results_simp
theorem pre_arg4 : pre W (Proc.devRef .tc main_arg4) = W (Proc.devRef .tc main_arg4) := by
  show StableHlo.after hostOps0_2 (StableHlo.after hostOps0_1 (StableHlo.after hostOps0 W)) _ = _
  after_results_simp
theorem pre_arg5 : pre W (Proc.devRef .tc main_arg5) = W (Proc.devRef .tc main_arg5) := by
  show StableHlo.after hostOps0_2 (StableHlo.after hostOps0_1 (StableHlo.after hostOps0 W)) _ = _
  after_results_simp

/-- The stretch after the first region: one aggregation of the table the region wrote. -/
theorem h1_agg : StableHlo.after hostOps1 W (Proc.devRef .tc main_v43)
    = Chain.agg128 (W (Proc.devRef .tc main_v30)) (W (Proc.devRef .tc main_v3)) (W (Proc.devRef .tc main_v6)) (W (Proc.devRef .tc main_v29)) := by
  after_results_simp
  rfl
theorem h1_v3 : StableHlo.after hostOps1 W (Proc.devRef .tc main_v3) = W (Proc.devRef .tc main_v3) := by
  after_results_simp
theorem h1_v6 : StableHlo.after hostOps1 W (Proc.devRef .tc main_v6) = W (Proc.devRef .tc main_v6) := by
  after_results_simp
theorem h1_v29 : StableHlo.after hostOps1 W (Proc.devRef .tc main_v29) = W (Proc.devRef .tc main_v29) := by
  after_results_simp
theorem h1_arg3 : StableHlo.after hostOps1 W (Proc.devRef .tc main_arg3) = W (Proc.devRef .tc main_arg3) := by
  after_results_simp
theorem h1_arg4 : StableHlo.after hostOps1 W (Proc.devRef .tc main_arg4) = W (Proc.devRef .tc main_arg4) := by
  after_results_simp
theorem h1_arg5 : StableHlo.after hostOps1 W (Proc.devRef .tc main_arg5) = W (Proc.devRef .tc main_arg5) := by
  after_results_simp

/-- The stretch after the second region: one aggregation of the table that region wrote. -/
theorem h2_agg : StableHlo.after hostOps2 W (Proc.devRef .tc main_v57)
    = Chain.agg64 (W (Proc.devRef .tc main_v44)) (W (Proc.devRef .tc main_v3)) (W (Proc.devRef .tc main_v6)) (W (Proc.devRef .tc main_v29)) := by
  after_results_simp
  rfl
theorem h2_arg5 : StableHlo.after hostOps2 W (Proc.devRef .tc main_arg5) = W (Proc.devRef .tc main_arg5) := by
  after_results_simp

end Cert.KernelIdeal.Host

end
-- ==== Proof.Gcn.lean ====
/-
  The two-layer graph convolution as one function of its six argument arrays, at the extended reals:
  the features times the first weight table, aggregated over the edges, then bias, clamp at zero and the second
  weight table, aggregated again, then the second bias. The edge ends and weights come from the edge list alone.
  Both programs are shown to end with their result array at this function of their arguments.
-/
import proofs.«173267_j79946521248145_1_alg».proof.Proof.Chain
import proofs.«173267_j79946521248145_1_alg».proof.Proof.Layers

noncomputable section

namespace Cert.Gcn

open Cert.KernelIdeal Idealize.ShloMosaic
open Cert.KernelIdeal.Chain (Arr)

/-- The network's output table from the features x, the edge list e, and the two layers' weights and biases. -/
def gcn (x : Arr Ideal S50000x256 .f32) (e : Arr Ideal S2x1600000 .i32) (w1 : Arr Ideal S256x128 .f32)
    (b1 : Arr Ideal S128 .f32) (w2 : Arr Ideal S128x64 .f32) (b2 : Arr Ideal S64 .f32) : Arr Ideal S50000x64 .f32 :=
  Cert.Layers.addBias (M := 50000) (N := 64)
    (Chain.agg64
      (Cert.Layers.biasReluDense (M := 50000) (K := 128) (N := 64)
        (Chain.agg128 (Cert.Layers.dense (M := 50000) (K := 256) (N := 128) x w1)
          (Chain.src e) (Chain.dst e) (Chain.nrm (Chain.src e) (Chain.dst e)))
        b1 w2)
      (Chain.src e) (Chain.dst e) (Chain.nrm (Chain.src e) (Chain.dst e)))
    b2

end Cert.Gcn

end
-- ==== Proof.KValue.lean ====
/-
  The idealized kernel's result array is the graph convolution of its arguments.

  The last boundary's contents at the result buffer are walked back through the program: the third region's output is
  its layer of the table the second aggregation left; that aggregation reads the second region's output, the edge
  ends and the edge weights; the second region's output is its layer of the first aggregation's table; and so on down
  to the launch memory. Every buffer a stretch or a region does not write keeps what it held, so the edge ends and
  weights, computed before the first region, and the argument arrays are the same at every later boundary.
-/
import proofs.«173267_j79946521248145_1_alg».proof.Proof.Gen.KernelIdeal.Frame
import proofs.«173267_j79946521248145_1_alg».proof.Proof.Region0
import proofs.«173267_j79946521248145_1_alg».proof.Proof.Region1
import proofs.«173267_j79946521248145_1_alg».proof.Proof.Region2
import proofs.«173267_j79946521248145_1_alg».proof.Proof.KStretches
import proofs.«173267_j79946521248145_1_alg».proof.Proof.Gcn

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## Before the first region: the edge ends, the edge weights, the arguments -/

theorem src3 : ((W3 (F := Ideal) m ρ c (Proc.devRef .tc main_v3))) = Chain.src ((W0 (F := Ideal) m ρ c (Proc.devRef .tc main_arg1))) := Host.pre_src (W0 m ρ c)
theorem dst3 : ((W3 (F := Ideal) m ρ c (Proc.devRef .tc main_v6))) = Chain.dst ((W0 (F := Ideal) m ρ c (Proc.devRef .tc main_arg1))) := Host.pre_dst (W0 m ρ c)
theorem nrm3 : ((W3 (F := Ideal) m ρ c (Proc.devRef .tc main_v29))) = Chain.nrm (Chain.src ((W0 (F := Ideal) m ρ c (Proc.devRef .tc main_arg1)))) (Chain.dst ((W0 (F := Ideal) m ρ c (Proc.devRef .tc main_arg1)))) := Host.pre_nrm (W0 m ρ c)
theorem arg0_3 : ((W3 (F := Ideal) m ρ c (Proc.devRef .tc main_arg0))) = (W0 (F := Ideal) m ρ c (Proc.devRef .tc main_arg0)) := Host.pre_arg0 (W0 m ρ c)
theorem arg2_3 : ((W3 (F := Ideal) m ρ c (Proc.devRef .tc main_arg2))) = (W0 (F := Ideal) m ρ c (Proc.devRef .tc main_arg2)) := Host.pre_arg2 (W0 m ρ c)
theorem arg3_3 : ((W3 (F := Ideal) m ρ c (Proc.devRef .tc main_arg3))) = (W0 (F := Ideal) m ρ c (Proc.devRef .tc main_arg3)) := Host.pre_arg3 (W0 m ρ c)
theorem arg4_3 : ((W3 (F := Ideal) m ρ c (Proc.devRef .tc main_arg4))) = (W0 (F := Ideal) m ρ c (Proc.devRef .tc main_arg4)) := Host.pre_arg4 (W0 m ρ c)
theorem arg5_3 : ((W3 (F := Ideal) m ρ c (Proc.devRef .tc main_arg5))) = (W0 (F := Ideal) m ρ c (Proc.devRef .tc main_arg5)) := Host.pre_arg5 (W0 m ρ c)

/-! ## The first region and the stretch after it -/

theorem v30_4 : ((W4 (F := Ideal) m ρ c (Proc.devRef .tc main_v30))) = Cert.Layers.dense (M := 50000) (K := 256) (N := 128) ((W0 (F := Ideal) m ρ c (Proc.devRef .tc main_arg0))) ((W0 (F := Ideal) m ρ c (Proc.devRef .tc main_arg2))) := by
  have h : ((W4 (F := Ideal) m ρ c (Proc.devRef .tc main_v30))) = Cert.Layers.dense (M := 50000) (K := 256) (N := 128) ((W3 (F := Ideal) m ρ c (Proc.devRef .tc main_arg0))) ((W3 (F := Ideal) m ρ c (Proc.devRef .tc main_arg2))) :=
    (W4_arr m ρ c 2).trans (Region0.final (V3 m ρ) c)
  rw [h, arg0_3, arg2_3]
theorem src4 : ((W4 (F := Ideal) m ρ c (Proc.devRef .tc main_v3))) = Chain.src ((W0 (F := Ideal) m ρ c (Proc.devRef .tc main_arg1))) := (W4_of_ne m ρ c main_v3 (by decide)).trans (src3 m ρ c)
theorem dst4 : ((W4 (F := Ideal) m ρ c (Proc.devRef .tc main_v6))) = Chain.dst ((W0 (F := Ideal) m ρ c (Proc.devRef .tc main_arg1))) := (W4_of_ne m ρ c main_v6 (by decide)).trans (dst3 m ρ c)
theorem nrm4 : ((W4 (F := Ideal) m ρ c (Proc.devRef .tc main_v29))) = Chain.nrm (Chain.src ((W0 (F := Ideal) m ρ c (Proc.devRef .tc main_arg1)))) (Chain.dst ((W0 (F := Ideal) m ρ c (Proc.devRef .tc main_arg1)))) :=
  (W4_of_ne m ρ c main_v29 (by decide)).trans (nrm3 m ρ c)
theorem arg3_4 : ((W4 (F := Ideal) m ρ c (Proc.devRef .tc main_arg3))) = (W0 (F := Ideal) m ρ c (Proc.devRef .tc main_arg3)) := (W4_of_ne m ρ c main_arg3 (by decide)).trans (arg3_3 m ρ c)
theorem arg4_4 : ((W4 (F := Ideal) m ρ c (Proc.devRef .tc main_arg4))) = (W0 (F := Ideal) m ρ c (Proc.devRef .tc main_arg4)) := (W4_of_ne m ρ c main_arg4 (by decide)).trans (arg4_3 m ρ c)
theorem arg5_4 : ((W4 (F := Ideal) m ρ c (Proc.devRef .tc main_arg5))) = (W0 (F := Ideal) m ρ c (Proc.devRef .tc main_arg5)) := (W4_of_ne m ρ c main_arg5 (by decide)).trans (arg5_3 m ρ c)

theorem v43_5 : ((W5 (F := Ideal) m ρ c (Proc.devRef .tc main_v43)))
    = Chain.agg128 (Cert.Layers.dense (M := 50000) (K := 256) (N := 128) ((W0 (F := Ideal) m ρ c (Proc.devRef .tc main_arg0))) ((W0 (F := Ideal) m ρ c (Proc.devRef .tc main_arg2))))
        (Chain.src ((W0 (F := Ideal) m ρ c (Proc.devRef .tc main_arg1)))) (Chain.dst ((W0 (F := Ideal) m ρ c (Proc.devRef .tc main_arg1)))) (Chain.nrm (Chain.src ((W0 (F := Ideal) m ρ c (Proc.devRef .tc main_arg1)))) (Chain.dst ((W0 (F := Ideal) m ρ c (Proc.devRef .tc main_arg1))))) := by
  have h : ((W5 (F := Ideal) m ρ c (Proc.devRef .tc main_v43))) = Chain.agg128 ((W4 (F := Ideal) m ρ c (Proc.devRef .tc main_v30))) ((W4 (F := Ideal) m ρ c (Proc.devRef .tc main_v3))) ((W4 (F := Ideal) m ρ c (Proc.devRef .tc main_v6))) ((W4 (F := Ideal) m ρ c (Proc.devRef .tc main_v29))) := Host.h1_agg (W4 m ρ c)
  rw [h, v30_4, src4, dst4, nrm4]
theorem src5 : ((W5 (F := Ideal) m ρ c (Proc.devRef .tc main_v3))) = Chain.src ((W0 (F := Ideal) m ρ c (Proc.devRef .tc main_arg1))) := (Host.h1_v3 (W4 m ρ c)).trans (src4 m ρ c)
theorem dst5 : ((W5 (F := Ideal) m ρ c (Proc.devRef .tc main_v6))) = Chain.dst ((W0 (F := Ideal) m ρ c (Proc.devRef .tc main_arg1))) := (Host.h1_v6 (W4 m ρ c)).trans (dst4 m ρ c)
theorem nrm5 : ((W5 (F := Ideal) m ρ c (Proc.devRef .tc main_v29))) = Chain.nrm (Chain.src ((W0 (F := Ideal) m ρ c (Proc.devRef .tc main_arg1)))) (Chain.dst ((W0 (F := Ideal) m ρ c (Proc.devRef .tc main_arg1)))) :=
  (Host.h1_v29 (W4 m ρ c)).trans (nrm4 m ρ c)
theorem arg3_5 : ((W5 (F := Ideal) m ρ c (Proc.devRef .tc main_arg3))) = (W0 (F := Ideal) m ρ c (Proc.devRef .tc main_arg3)) := (Host.h1_arg3 (W4 m ρ c)).trans (arg3_4 m ρ c)
theorem arg4_5 : ((W5 (F := Ideal) m ρ c (Proc.devRef .tc main_arg4))) = (W0 (F := Ideal) m ρ c (Proc.devRef .tc main_arg4)) := (Host.h1_arg4 (W4 m ρ c)).trans (arg4_4 m ρ c)
theorem arg5_5 : ((W5 (F := Ideal) m ρ c (Proc.devRef .tc main_arg5))) = (W0 (F := Ideal) m ρ c (Proc.devRef .tc main_arg5)) := (Host.h1_arg5 (W4 m ρ c)).trans (arg5_4 m ρ c)

/-! ## The second region and the stretch after it -/

theorem v44_6 : ((W6 (F := Ideal) m ρ c (Proc.devRef .tc main_v44)))
    = Cert.Layers.biasReluDense (M := 50000) (K := 128) (N := 64) ((W5 (F := Ideal) m ρ c (Proc.devRef .tc main_v43))) ((W0 (F := Ideal) m ρ c (Proc.devRef .tc main_arg3))) ((W0 (F := Ideal) m ρ c (Proc.devRef .tc main_arg4))) := by
  have h : ((W6 (F := Ideal) m ρ c (Proc.devRef .tc main_v44))) = Cert.Layers.biasReluDense (M := 50000) (K := 128) (N := 64) ((W5 (F := Ideal) m ρ c (Proc.devRef .tc main_v43))) ((W5 (F := Ideal) m ρ c (Proc.devRef .tc main_arg3))) ((W5 (F := Ideal) m ρ c (Proc.devRef .tc main_arg4))) :=
    (W6_arr m ρ c 3).trans (Region1.final (V5 m ρ) c)
  rw [h, arg3_5, arg4_5]
theorem src6 : ((W6 (F := Ideal) m ρ c (Proc.devRef .tc main_v3))) = Chain.src ((W0 (F := Ideal) m ρ c (Proc.devRef .tc main_arg1))) := (W6_of_ne m ρ c main_v3 (by decide)).trans (src5 m ρ c)
theorem dst6 : ((W6 (F := Ideal) m ρ c (Proc.devRef .tc main_v6))) = Chain.dst ((W0 (F := Ideal) m ρ c (Proc.devRef .tc main_arg1))) := (W6_of_ne m ρ c main_v6 (by decide)).trans (dst5 m ρ c)
theorem nrm6 : ((W6 (F := Ideal) m ρ c (Proc.devRef .tc main_v29))) = Chain.nrm (Chain.src ((W0 (F := Ideal) m ρ c (Proc.devRef .tc main_arg1)))) (Chain.dst ((W0 (F := Ideal) m ρ c (Proc.devRef .tc main_arg1)))) :=
  (W6_of_ne m ρ c main_v29 (by decide)).trans (nrm5 m ρ c)
theorem arg5_6 : ((W6 (F := Ideal) m ρ c (Proc.devRef .tc main_arg5))) = (W0 (F := Ideal) m ρ c (Proc.devRef .tc main_arg5)) := (W6_of_ne m ρ c main_arg5 (by decide)).trans (arg5_5 m ρ c)

theorem v57_7 : ((W7 (F := Ideal) m ρ c (Proc.devRef .tc main_v57)))
    = Chain.agg64 ((W6 (F := Ideal) m ρ c (Proc.devRef .tc main_v44))) (Chain.src ((W0 (F := Ideal) m ρ c (Proc.devRef .tc main_arg1)))) (Chain.dst ((W0 (F := Ideal) m ρ c (Proc.devRef .tc main_arg1))))
        (Chain.nrm (Chain.src ((W0 (F := Ideal) m ρ c (Proc.devRef .tc main_arg1)))) (Chain.dst ((W0 (F := Ideal) m ρ c (Proc.devRef .tc main_arg1))))) := by
  have h : ((W7 (F := Ideal) m ρ c (Proc.devRef .tc main_v57))) = Chain.agg64 ((W6 (F := Ideal) m ρ c (Proc.devRef .tc main_v44))) ((W6 (F := Ideal) m ρ c (Proc.devRef .tc main_v3))) ((W6 (F := Ideal) m ρ c (Proc.devRef .tc main_v6))) ((W6 (F := Ideal) m ρ c (Proc.devRef .tc main_v29))) := Host.h2_agg (W6 m ρ c)
  rw [h, src6, dst6, nrm6]
theorem arg5_7 : ((W7 (F := Ideal) m ρ c (Proc.devRef .tc main_arg5))) = (W0 (F := Ideal) m ρ c (Proc.devRef .tc main_arg5)) := (Host.h2_arg5 (W6 m ρ c)).trans (arg5_6 m ρ c)

/-! ## The third region: the result -/

theorem v58_8 : ((W8 (F := Ideal) m ρ c (Proc.devRef .tc main_v58))) = Cert.Layers.addBias (M := 50000) (N := 64) ((W7 (F := Ideal) m ρ c (Proc.devRef .tc main_v57))) ((W0 (F := Ideal) m ρ c (Proc.devRef .tc main_arg5))) := by
  have h : ((W8 (F := Ideal) m ρ c (Proc.devRef .tc main_v58))) = Cert.Layers.addBias (M := 50000) (N := 64) ((W7 (F := Ideal) m ρ c (Proc.devRef .tc main_v57))) ((W7 (F := Ideal) m ρ c (Proc.devRef .tc main_arg5))) :=
    (W8_arr m ρ c 2).trans (Region2.final (V7 m ρ) c)
  rw [h, arg5_7]

/-- The result array at the last boundary is the graph convolution of the launch memory's argument arrays. -/
theorem result : W8 (F := Ideal) m ρ c (Proc.devRef .tc main_v58)
    = Cert.Gcn.gcn (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  rw [v58_8, v57_7, v44_6, v43_5]
  rfl

end Cert.KernelIdeal.Value

end
-- ==== Proof.RefDense.lean ====
/-
  The reference program's three dense stages, each as one function of the arrays it reads.

  Between its edge aggregations the reference (1) multiplies the node features by the first weight table, (2) adds
  the first bias, laid as a row and repeated over the rows, clamps the sum below at zero and multiplies by the second
  weight table, (3) adds the second bias the same way. Each stage is named here with the very operations the
  reference applies, over any float interpretation.
-/
import proofs.«173267_j79946521248145_1_alg».proof.ReferenceIdeal
import proofs.«173267_j79946521248145_1_alg».proof.Proof.Gen.ReferenceIdeal

noncomputable section

namespace Cert.ReferenceIdeal.Dense

open Cert.ReferenceIdeal Cert.ReferenceIdeal.Facts₀ Cert.ReferenceIdeal.Facts Idealize.ShloMosaic

variable {F : FTy → Type} [FloatOps F]

/-- The contents of an array of shape S and element type e. -/
abbrev Arr (F : FTy → Type) (S : Shape) (e : EltTy) : Type := (⟨S, e⟩ : BufTy).Contents (Elt F)

/-- The first stage: the node features times the first weight table. -/
def layer1 (x : Arr F S50000x256 .f32) (w : Arr F S256x128 .f32) : Arr F S50000x128 .f32 :=
  Host.dotGeneral dot_S50000x256_S256x128_S50000x128_1_0_0_1_n_n none x w

/-- The second stage: the bias row added to every row, the sum clamped below at zero, times the second weight table. -/
def layer2 (a : Arr F S50000x128 .f32) (b : Arr F S128 .f32) (w : Arr F S128x64 .f32) : Arr F S50000x64 .f32 :=
  Host.dotGeneral dot_S50000x128_S128x64_S50000x64_1_0_0_1_n_n none
    (maximumf
      (addf a (broadcastInDim S50000x128 ![0, 1] bcast_S1x128_S50000x128_0_1 (broadcastInDim S1x128 ![1] bcast_S128_S1x128_1 b)))
      (broadcastInDim S50000x128 ![] bcast_S_S50000x128 (constant S_ .f32 0x00000000#32)))
    w

/-- The third stage: the bias row added to every row. -/
def layer3 (a : Arr F S50000x64 .f32) (b : Arr F S64 .f32) : Arr F S50000x64 .f32 :=
  addf a (broadcastInDim S50000x64 ![0, 1] bcast_S1x64_S50000x64_0_1 (broadcastInDim S1x64 ![1] bcast_S64_S1x64_1 b))

end Cert.ReferenceIdeal.Dense

end
-- ==== Proof.RefStretches.lean ====
/-
  The reference program's result, read off its run as a function of the buffers it starts from.

  The reference is one line of host operations. From ANY contents W of its buffers, after all of them the result
  buffer holds: the first dense stage of the features, aggregated over the edges, through the second dense stage,
  aggregated again, through the third — the edge ends and weights computed from the edge list as the edge side has
  them. The line is cut into stretches, each opening at an operation whose operands are then plain buffers, each read
  over a variable W and the stretches joined; the aggregations are carried as the named functions and never opened.
-/
import proofs.«173267_j79946521248145_1_alg».proof.Proof.RefOps
import proofs.«173267_j79946521248145_1_alg».proof.Proof.RefDense
import proofs.«173267_j79946521248145_1_alg».proof.Proof.Chain
import Idealize.ShloMosaic.Lib.StableHlo.Run
import Idealize.ShloMosaic.Lib.Pipeline.Frame

noncomputable section

namespace Cert.ReferenceIdeal.Host

open Cert.ReferenceIdeal Cert.ReferenceIdeal.RunP Idealize.ShloMosaic Idealize.ShloMosaic.TcCoe Idealize.SL.Sem Idealize.ShloMosaic.StableHlo
open Cert.KernelIdeal (Chain.src Chain.dst Chain.nrm Chain.agg128 Chain.agg64)

variable {F : FTy → Type} [FloatOps F] (W : Valuation τ sig (Elt F))

section Stretches

open Cert.ReferenceIdeal.Gen
open Cert.KernelIdeal (Chain.cat Chain.flat Chain.nodes)

variable (V : Valuation τ sig (Elt F))

/-- Operations 0 to 2 of the line. The node numbers, and the first row of the edge list flattened. -/
def s0 : List (HloOp τ sig (Elt F)) :=
  [ nullary main_v0 (iotaInDim S50000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000 ]

/-- Operations 3 to 5 of the line. The sources joined with the node numbers; the second row of the edge list flattened. -/
def s1 : List (HloOp τ sig (Elt F)) :=
  [ binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000 ]

/-- Operations 6 to 39 of the line. The destinations joined with the node numbers; the degrees, their inverse square roots, and the edge weights. -/
def s2 : List (HloOp τ sig (Elt F)) :=
  [ binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst (constant S_ .f32 0x3F800000#32),
    unary main_cst main_v7 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S1650000x1 ![0] bcast_S1650000_S1650000x1_0 : (⟨S1650000, .i32⟩ : BufTy).Contents (Elt F) → (⟨S1650000x1, .i32⟩ : BufTy).Contents (Elt F)),
    ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S1650000 ![] bcast_S_S1650000 : (⟨S_, .i32⟩ : BufTy).Contents (Elt F) → (⟨S1650000, .i32⟩ : BufTy).Contents (Elt F)),
    binary main_v3 main_v15 main_v16 (cmpi .slt : (⟨S1650000, .i32⟩ : BufTy).Contents (Elt F) → (⟨S1650000, .i32⟩ : BufTy).Contents (Elt F) → (⟨S1650000, .i1⟩ : BufTy).Contents (Elt F)),
    nullary main_c_3 (constantI S_ 32 50000#32),
    unary main_c_3 main_v17 (broadcastInDim S1650000 ![] bcast_S_S1650000 : (⟨S_, .i32⟩ : BufTy).Contents (Elt F) → (⟨S1650000, .i32⟩ : BufTy).Contents (Elt F)),
    binary main_v3 main_v17 main_v18 (addi : (⟨S1650000, .i32⟩ : BufTy).Contents (Elt F) → (⟨S1650000, .i32⟩ : BufTy).Contents (Elt F) → (⟨S1650000, .i32⟩ : BufTy).Contents (Elt F)),
    ternary main_v16 main_v18 main_v3 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v19 main_v20 (broadcastInDim S1650000x1 ![0] bcast_S1650000_S1650000x1_0 : (⟨S1650000, .i32⟩ : BufTy).Contents (Elt F) → (⟨S1650000x1, .i32⟩ : BufTy).Contents (Elt F)),
    binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_4 (constantI S_ 32 0#32),
    unary main_c_4 main_v22 (broadcastInDim S1650000 ![] bcast_S_S1650000 : (⟨S_, .i32⟩ : BufTy).Contents (Elt F) → (⟨S1650000, .i32⟩ : BufTy).Contents (Elt F)),
    binary main_v6 main_v22 main_v23 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v24 (broadcastInDim S1650000 ![] bcast_S_S1650000 : (⟨S_, .i32⟩ : BufTy).Contents (Elt F) → (⟨S1650000, .i32⟩ : BufTy).Contents (Elt F)),
    binary main_v6 main_v24 main_v25 (addi : (⟨S1650000, .i32⟩ : BufTy).Contents (Elt F) → (⟨S1650000, .i32⟩ : BufTy).Contents (Elt F) → (⟨S1650000, .i32⟩ : BufTy).Contents (Elt F)),
    ternary main_v23 main_v25 main_v6 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v26 main_v27 (broadcastInDim S1650000x1 ![0] bcast_S1650000_S1650000x1_0 : (⟨S1650000, .i32⟩ : BufTy).Contents (Elt F) → (⟨S1650000x1, .i32⟩ : BufTy).Contents (Elt F)),
    binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v21 main_v28 main_v29 (mulf : (⟨S1650000, .f32⟩ : BufTy).Contents (Elt F) → (⟨S1650000, .f32⟩ : BufTy).Contents (Elt F) → (⟨S1650000, .f32⟩ : BufTy).Contents (Elt F)) ]

/-- Operation 40 of the line. The first dense stage. -/
def s3 : List (HloOp τ sig (Elt F)) :=
  [ binary main_arg0 main_arg2 main_v30 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ]

/-- Operations 41 to 56 of the line. The first aggregation. -/
def s4 : List (HloOp τ sig (Elt F)) :=
  [ nullary main_c_6 (constantI S_ 32 0#32),
    unary main_c_6 main_v31 (broadcastInDim S1650000 ![] bcast_S_S1650000 : (⟨S_, .i32⟩ : BufTy).Contents (Elt F) → (⟨S1650000, .i32⟩ : BufTy).Contents (Elt F)),
    binary main_v3 main_v31 main_v32 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v33 (broadcastInDim S1650000 ![] bcast_S_S1650000 : (⟨S_, .i32⟩ : BufTy).Contents (Elt F) → (⟨S1650000, .i32⟩ : BufTy).Contents (Elt F)),
    binary main_v3 main_v33 main_v34 (addi : (⟨S1650000, .i32⟩ : BufTy).Contents (Elt F) → (⟨S1650000, .i32⟩ : BufTy).Contents (Elt F) → (⟨S1650000, .i32⟩ : BufTy).Contents (Elt F)),
    ternary main_v32 main_v34 main_v3 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v35 main_v36 (broadcastInDim S1650000x1 ![0] bcast_S1650000_S1650000x1_0 : (⟨S1650000, .i32⟩ : BufTy).Contents (Elt F) → (⟨S1650000x1, .i32⟩ : BufTy).Contents (Elt F)),
    binary main_v30 main_v36 main_v37 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v29 main_v38 (broadcastInDim S1650000x1 ![0] bcast_S1650000_S1650000x1_0 : (⟨S1650000, .f32⟩ : BufTy).Contents (Elt F) → (⟨S1650000x1, .f32⟩ : BufTy).Contents (Elt F)),
    unary main_v38 main_v39 (broadcastInDim S1650000x128 ![0, 1] bcast_S1650000x1_S1650000x128_0_1 : (⟨S1650000x1, .f32⟩ : BufTy).Contents (Elt F) → (⟨S1650000x128, .f32⟩ : BufTy).Contents (Elt F)),
    binary main_v37 main_v39 main_v40 (mulf : (⟨S1650000x128, .f32⟩ : BufTy).Contents (Elt F) → (⟨S1650000x128, .f32⟩ : BufTy).Contents (Elt F) → (⟨S1650000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S1650000x1 ![0] bcast_S1650000_S1650000x1_0 : (⟨S1650000, .i32⟩ : BufTy).Contents (Elt F) → (⟨S1650000x1, .i32⟩ : BufTy).Contents (Elt F)),
    ternary main_v41 main_v42 main_v40 main_v43 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)) ]

/-- Operations 57 to 63 of the line. The second dense stage. -/
def s5 : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg4 main_v48 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- Operations 64 to 79 of the line. The second aggregation. -/
def s6 : List (HloOp τ sig (Elt F)) :=
  [ nullary main_c_9 (constantI S_ 32 0#32),
    unary main_c_9 main_v49 (broadcastInDim S1650000 ![] bcast_S_S1650000 : (⟨S_, .i32⟩ : BufTy).Contents (Elt F) → (⟨S1650000, .i32⟩ : BufTy).Contents (Elt F)),
    binary main_v3 main_v49 main_v50 (cmpi .slt : (⟨S1650000, .i32⟩ : BufTy).Contents (Elt F) → (⟨S1650000, .i32⟩ : BufTy).Contents (Elt F) → (⟨S1650000, .i1⟩ : BufTy).Contents (Elt F)),
    nullary main_c_10 (constantI S_ 32 50000#32),
    unary main_c_10 main_v51 (broadcastInDim S1650000 ![] bcast_S_S1650000 : (⟨S_, .i32⟩ : BufTy).Contents (Elt F) → (⟨S1650000, .i32⟩ : BufTy).Contents (Elt F)),
    binary main_v3 main_v51 main_v52 (addi : (⟨S1650000, .i32⟩ : BufTy).Contents (Elt F) → (⟨S1650000, .i32⟩ : BufTy).Contents (Elt F) → (⟨S1650000, .i32⟩ : BufTy).Contents (Elt F)),
    ternary main_v50 main_v52 main_v3 main_v53 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v53 main_v54 (broadcastInDim S1650000x1 ![0] bcast_S1650000_S1650000x1_0 : (⟨S1650000, .i32⟩ : BufTy).Contents (Elt F) → (⟨S1650000x1, .i32⟩ : BufTy).Contents (Elt F)),
    binary main_v48 main_v54 main_v55 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v29 main_v56 (broadcastInDim S1650000x1 ![0] bcast_S1650000_S1650000x1_0 : (⟨S1650000, .f32⟩ : BufTy).Contents (Elt F) → (⟨S1650000x1, .f32⟩ : BufTy).Contents (Elt F)),
    unary main_v56 main_v57 (broadcastInDim S1650000x64 ![0, 1] bcast_S1650000x1_S1650000x64_0_1 : (⟨S1650000x1, .f32⟩ : BufTy).Contents (Elt F) → (⟨S1650000x64, .f32⟩ : BufTy).Contents (Elt F)),
    binary main_v55 main_v57 main_v58 (mulf : (⟨S1650000x64, .f32⟩ : BufTy).Contents (Elt F) → (⟨S1650000x64, .f32⟩ : BufTy).Contents (Elt F) → (⟨S1650000x64, .f32⟩ : BufTy).Contents (Elt F)),
    nullary main_cst_11 (constant S_ .f32 0x00000000#32),
    unary main_cst_11 main_v59 (broadcastInDim S50000x64 ![] bcast_S_S50000x64 : (⟨S_, .f32⟩ : BufTy).Contents (Elt F) → (⟨S50000x64, .f32⟩ : BufTy).Contents (Elt F)),
    unary main_v6 main_v60 (broadcastInDim S1650000x1 ![0] bcast_S1650000_S1650000x1_0 : (⟨S1650000, .i32⟩ : BufTy).Contents (Elt F) → (⟨S1650000x1, .i32⟩ : BufTy).Contents (Elt F)),
    ternary main_v59 main_v60 main_v58 main_v61 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)) ]

/-- Operations 80 to 82 of the line. The third dense stage. -/
def s7 : List (HloOp τ sig (Elt F)) :=
  [ unary main_arg5 main_v62 (broadcastInDim S1x64 ![1] bcast_S64_S1x64_1 : (⟨S64, .f32⟩ : BufTy).Contents (Elt F) → (⟨S1x64, .f32⟩ : BufTy).Contents (Elt F)),
    unary main_v62 main_v63 (broadcastInDim S50000x64 ![0, 1] bcast_S1x64_S50000x64_0_1 : (⟨S1x64, .f32⟩ : BufTy).Contents (Elt F) → (⟨S50000x64, .f32⟩ : BufTy).Contents (Elt F)),
    binary main_v61 main_v63 main_v64 (addf : (⟨S50000x64, .f32⟩ : BufTy).Contents (Elt F) → (⟨S50000x64, .f32⟩ : BufTy).Contents (Elt F) → (⟨S50000x64, .f32⟩ : BufTy).Contents (Elt F)) ]

/-- The line is its eight stretches in a row. -/
theorem ops_eq : (ops : List (HloOp τ sig (Elt F))) = s0 ++ (s1 ++ (s2 ++ (s3 ++ (s4 ++ (s5 ++ (s6 ++ s7)))))) := rfl

/-! What each stretch leaves in the buffers later stretches read, from any contents V: the named function of the
    buffers the stretch starts from. -/

theorem s1_v3 : after (s1 (F := F)) V (Proc.devRef .tc main_v3) = Chain.cat (V (Proc.devRef .tc main_v2)) (V (Proc.devRef .tc main_v0)) := by
  unfold s1; after_results_simp; rfl

theorem s3_v30 : after (s3 (F := F)) V (Proc.devRef .tc main_v30) = Dense.layer1 (V (Proc.devRef .tc main_arg0)) (V (Proc.devRef .tc main_arg2)) := by
  unfold s3; after_results_simp; rfl

theorem s7_v64 : after (s7 (F := F)) V (Proc.devRef .tc main_v64) = Dense.layer3 (V (Proc.devRef .tc main_v61)) (V (Proc.devRef .tc main_arg5)) := by
  unfold s7; after_results_simp; rfl

theorem s01_v3 : after (s1 (F := F)) (after s0 V) (Proc.devRef .tc main_v3) = Chain.src (V (Proc.devRef .tc main_arg1)) := by
  rw [s1_v3]; unfold s0; after_results_simp; rfl

theorem s2_v6 : after (s2 (F := F)) V (Proc.devRef .tc main_v6) = Chain.cat (V (Proc.devRef .tc main_v5)) (V (Proc.devRef .tc main_v0)) := by
  unfold s2; after_results_simp; rfl

theorem s2_v29 : after (s2 (F := F)) V (Proc.devRef .tc main_v29)
    = Chain.nrm (V (Proc.devRef .tc main_v3)) (Chain.cat (V (Proc.devRef .tc main_v5)) (V (Proc.devRef .tc main_v0))) := by
  unfold s2; after_results_simp
  simp only [TRef.toBuf, TRef.ofBuf, cast_eq, id]
  rfl

theorem s4_v43 : after (s4 (F := F)) V (Proc.devRef .tc main_v43)
    = Chain.agg128 (V (Proc.devRef .tc main_v30)) (V (Proc.devRef .tc main_v3)) (V (Proc.devRef .tc main_v6)) (V (Proc.devRef .tc main_v29)) := by
  unfold s4; after_results_simp; rfl

theorem s5_v48 : after (s5 (F := F)) V (Proc.devRef .tc main_v48)
    = Dense.layer2 (V (Proc.devRef .tc main_v43)) (V (Proc.devRef .tc main_arg3)) (V (Proc.devRef .tc main_arg4)) := by
  unfold s5; after_results_simp
  simp only [TRef.toBuf, TRef.ofBuf, cast_eq, id]
  rfl

theorem s6_v61 : after (s6 (F := F)) V (Proc.devRef .tc main_v61)
    = Chain.agg64 (V (Proc.devRef .tc main_v48)) (V (Proc.devRef .tc main_v3)) (V (Proc.devRef .tc main_v6)) (V (Proc.devRef .tc main_v29)) := by
  unfold s6; after_results_simp; rfl

/-! Buffers a stretch does not write keep their contents. -/

theorem s6_keep_arg5 : after (s6 (F := F)) V (Proc.devRef .tc main_arg5) = V (Proc.devRef .tc main_arg5) := by
  unfold s6; after_results_simp
theorem s5_keep_v3 : after (s5 (F := F)) V (Proc.devRef .tc main_v3) = V (Proc.devRef .tc main_v3) := by
  unfold s5; after_results_simp
theorem s5_keep_v6 : after (s5 (F := F)) V (Proc.devRef .tc main_v6) = V (Proc.devRef .tc main_v6) := by
  unfold s5; after_results_simp
theorem s5_keep_v29 : after (s5 (F := F)) V (Proc.devRef .tc main_v29) = V (Proc.devRef .tc main_v29) := by
  unfold s5; after_results_simp
theorem s5_keep_arg5 : after (s5 (F := F)) V (Proc.devRef .tc main_arg5) = V (Proc.devRef .tc main_arg5) := by
  unfold s5; after_results_simp
theorem s4_keep_v3 : after (s4 (F := F)) V (Proc.devRef .tc main_v3) = V (Proc.devRef .tc main_v3) := by
  unfold s4; after_results_simp
theorem s4_keep_v6 : after (s4 (F := F)) V (Proc.devRef .tc main_v6) = V (Proc.devRef .tc main_v6) := by
  unfold s4; after_results_simp
theorem s4_keep_v29 : after (s4 (F := F)) V (Proc.devRef .tc main_v29) = V (Proc.devRef .tc main_v29) := by
  unfold s4; after_results_simp
theorem s4_keep_arg3 : after (s4 (F := F)) V (Proc.devRef .tc main_arg3) = V (Proc.devRef .tc main_arg3) := by
  unfold s4; after_results_simp
theorem s4_keep_arg4 : after (s4 (F := F)) V (Proc.devRef .tc main_arg4) = V (Proc.devRef .tc main_arg4) := by
  unfold s4; after_results_simp
theorem s4_keep_arg5 : after (s4 (F := F)) V (Proc.devRef .tc main_arg5) = V (Proc.devRef .tc main_arg5) := by
  unfold s4; after_results_simp
theorem s3_keep_v3 : after (s3 (F := F)) V (Proc.devRef .tc main_v3) = V (Proc.devRef .tc main_v3) := by
  unfold s3; after_results_simp
theorem s3_keep_v6 : after (s3 (F := F)) V (Proc.devRef .tc main_v6) = V (Proc.devRef .tc main_v6) := by
  unfold s3; after_results_simp
theorem s3_keep_v29 : after (s3 (F := F)) V (Proc.devRef .tc main_v29) = V (Proc.devRef .tc main_v29) := by
  unfold s3; after_results_simp
theorem s3_keep_arg3 : after (s3 (F := F)) V (Proc.devRef .tc main_arg3) = V (Proc.devRef .tc main_arg3) := by
  unfold s3; after_results_simp
theorem s3_keep_arg4 : after (s3 (F := F)) V (Proc.devRef .tc main_arg4) = V (Proc.devRef .tc main_arg4) := by
  unfold s3; after_results_simp
theorem s3_keep_arg5 : after (s3 (F := F)) V (Proc.devRef .tc main_arg5) = V (Proc.devRef .tc main_arg5) := by
  unfold s3; after_results_simp
theorem s2_keep_v3 : after (s2 (F := F)) V (Proc.devRef .tc main_v3) = V (Proc.devRef .tc main_v3) := by
  unfold s2; after_results_simp
theorem s2_keep_arg0 : after (s2 (F := F)) V (Proc.devRef .tc main_arg0) = V (Proc.devRef .tc main_arg0) := by
  unfold s2; after_results_simp
theorem s2_keep_arg2 : after (s2 (F := F)) V (Proc.devRef .tc main_arg2) = V (Proc.devRef .tc main_arg2) := by
  unfold s2; after_results_simp
theorem s2_keep_arg3 : after (s2 (F := F)) V (Proc.devRef .tc main_arg3) = V (Proc.devRef .tc main_arg3) := by
  unfold s2; after_results_simp
theorem s2_keep_arg4 : after (s2 (F := F)) V (Proc.devRef .tc main_arg4) = V (Proc.devRef .tc main_arg4) := by
  unfold s2; after_results_simp
theorem s2_keep_arg5 : after (s2 (F := F)) V (Proc.devRef .tc main_arg5) = V (Proc.devRef .tc main_arg5) := by
  unfold s2; after_results_simp

theorem s01_keep_arg0 : after (s1 (F := F)) (after s0 V) (Proc.devRef .tc main_arg0) = V (Proc.devRef .tc main_arg0) := by
  unfold s1 s0; after_results_simp
theorem s01_keep_arg2 : after (s1 (F := F)) (after s0 V) (Proc.devRef .tc main_arg2) = V (Proc.devRef .tc main_arg2) := by
  unfold s1 s0; after_results_simp
theorem s01_keep_arg3 : after (s1 (F := F)) (after s0 V) (Proc.devRef .tc main_arg3) = V (Proc.devRef .tc main_arg3) := by
  unfold s1 s0; after_results_simp
theorem s01_keep_arg4 : after (s1 (F := F)) (after s0 V) (Proc.devRef .tc main_arg4) = V (Proc.devRef .tc main_arg4) := by
  unfold s1 s0; after_results_simp
theorem s01_keep_arg5 : after (s1 (F := F)) (after s0 V) (Proc.devRef .tc main_arg5) = V (Proc.devRef .tc main_arg5) := by
  unfold s1 s0; after_results_simp

/-- After the first two stretches the destinations' two pieces are in place: the second row of the edge list
    flattened, and the node numbers. -/
theorem s01_dst : Chain.cat (after (s1 (F := F)) (after s0 V) (Proc.devRef .tc main_v5)) (after (s1 (F := F)) (after s0 V) (Proc.devRef .tc main_v0))
    = Chain.dst (V (Proc.devRef .tc main_arg1)) := by
  unfold s1 s0; after_results_simp; rfl

end Stretches

/-- After all of the reference's operations, from contents W, the result buffer holds the three dense stages
    interleaved with the two aggregations, of W's argument arrays. -/
theorem ref_read :
    StableHlo.after (ops (F := F)) W (Proc.devRef .tc main_v64)
      = Dense.layer3
          (Chain.agg64
            (Dense.layer2
              (Chain.agg128 (Dense.layer1 (W (Proc.devRef .tc main_arg0)) (W (Proc.devRef .tc main_arg2)))
                (Chain.src (W (Proc.devRef .tc main_arg1))) (Chain.dst (W (Proc.devRef .tc main_arg1)))
                (Chain.nrm (Chain.src (W (Proc.devRef .tc main_arg1))) (Chain.dst (W (Proc.devRef .tc main_arg1)))))
              (W (Proc.devRef .tc main_arg3)) (W (Proc.devRef .tc main_arg4)))
            (Chain.src (W (Proc.devRef .tc main_arg1))) (Chain.dst (W (Proc.devRef .tc main_arg1)))
            (Chain.nrm (Chain.src (W (Proc.devRef .tc main_arg1))) (Chain.dst (W (Proc.devRef .tc main_arg1)))))
          (W (Proc.devRef .tc main_arg5)) := by
  rw [ops_eq]
  simp only [after_append]
  -- the third dense stage, over what the second aggregation left
  rw [s7_v64]
  rw [s6_v61, s6_keep_arg5]
  -- the second dense stage, over what the first aggregation left
  rw [s5_v48, s5_keep_v3, s5_keep_v6, s5_keep_v29, s5_keep_arg5]
  rw [s4_v43, s4_keep_v3, s4_keep_v6, s4_keep_v29, s4_keep_arg3, s4_keep_arg4, s4_keep_arg5]
  -- the first dense stage
  rw [s3_v30, s3_keep_v3, s3_keep_v6, s3_keep_v29, s3_keep_arg3, s3_keep_arg4, s3_keep_arg5]
  -- the edge weights and the destinations, then the sources
  rw [s2_v29, s2_v6, s2_keep_v3, s2_keep_arg0, s2_keep_arg2, s2_keep_arg3, s2_keep_arg4, s2_keep_arg5]
  rw [s01_v3, s01_dst, s01_keep_arg0, s01_keep_arg2, s01_keep_arg3, s01_keep_arg4, s01_keep_arg5]

end Cert.ReferenceIdeal.Host

end
-- ==== Proof.RefLayers.lean ====
/-
  The reference's three dense stages are the three layers, entry by entry, at the extended reals.

  A host product with the plain dimension numbers is at (r, q) the sum over k of the entries' products; a vector
  broadcast to a one-row table and that row repeated over all rows reads at (r, k) the vector's entry k; the
  elementwise operations act entry by entry. So each stage, read at an entry, is the layer's formula.
-/
import proofs.«173267_j79946521248145_1_alg».proof.Proof.RefDense
import proofs.«173267_j79946521248145_1_alg».proof.Proof.Layers
import proofs.«173267_j79946521248145_1_alg».proof.Proof.LibTileMatmul
import Idealize.ShloMosaic.Lib.Pipeline.Value
import Idealize.ShloMosaic.Lib.ValueIdx

noncomputable section

namespace Cert.ReferenceIdeal.Dense

open Cert.ReferenceIdeal Cert.ReferenceIdeal.Facts₀ Cert.ReferenceIdeal.Facts Idealize.ShloMosaic Idealize.ShloMosaic.ValueIdx

/-- A vector of length n laid as a one-row table, and that row repeated over M rows, reads at (r, k) the vector's
    entry k. -/
theorem bias_rows_apply {α : Type} {M n : ℕ} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![M, n]⟩ ![0, 1]) (r : Fin M) (k : Fin n) :
    broadcastInDim ⟨2, ![M, n]⟩ ![0, 1] h2 (broadcastInDim ⟨2, ![1, n]⟩ ![1] h1 b) (ix2 r k) = b (ix1 k) := by
  refine (broadcastInDim_apply ![0, 1] h2 _ (ix2 r k) (ix2 (0 : Fin 1) k) ?_).trans
    (broadcastInDim_apply ![1] h1 b (ix2 (0 : Fin 1) k) (ix1 k) ?_)
  · intro a
    match a with
    | ⟨0, _⟩ => show (0 : ℕ) = if (1 : ℕ) = 1 then 0 else r.val; rw [if_pos rfl]
    | ⟨1, _⟩ => show k.val = if n = 1 then 0 else k.val; have := k.isLt; split <;> omega
  · intro a
    match a with
    | ⟨0, _⟩ => show k.val = if n = 1 then 0 else k.val; have := k.isLt; split <;> omega

/-- The zero word repeated over a whole table reads the zero word at every entry. -/
theorem zero_table_apply (r : Fin 50000) (k : Fin 128) :
    broadcastInDim S50000x128 ![] bcast_S_S50000x128 (constant (F := Ideal) S_ .f32 0x00000000#32) (ix2 r k)
      = Ideal.ofBits .f32 0x00000000#32 :=
  broadcastInDim_apply ![] bcast_S_S50000x128 (constant (F := Ideal) S_ .f32 0x00000000#32) (ix2 r k) ix0
    (fun a => a.elim0)

theorem layer1_eq (x : Arr Ideal S50000x256 .f32) (w : Arr Ideal S256x128 .f32) :
    layer1 (F := Ideal) x w = Cert.Layers.dense (M := 50000) (K := 256) (N := 128) x w := by
  funext j
  obtain ⟨r, q, rfl⟩ : ∃ (r : Fin 50000) (q : Fin 128), j = ix2 r q := ⟨j 0, j 1, eq_ix2 j⟩
  rw [Cert.Layers.dense_apply]
  exact TileMatmul.dotGeneral_apply dot_S50000x256_S256x128_S50000x128_1_0_0_1_n_n_wf none x w r q

theorem layer2_eq (a : Arr Ideal S50000x128 .f32) (b : Arr Ideal S128 .f32) (w : Arr Ideal S128x64 .f32) :
    layer2 (F := Ideal) a b w = Cert.Layers.biasReluDense (M := 50000) (K := 128) (N := 64) a b w := by
  funext j
  obtain ⟨r, q, rfl⟩ : ∃ (r : Fin 50000) (q : Fin 64), j = ix2 r q := ⟨j 0, j 1, eq_ix2 j⟩
  rw [Cert.Layers.biasReluDense_apply]
  refine (TileMatmul.dotGeneral_apply dot_S50000x128_S128x64_S50000x64_1_0_0_1_n_n_wf none _ w r q).trans ?_
  refine Finset.sum_congr rfl fun k _ => ?_
  show FloatOps.maximumf
      (FloatOps.addf (a (ix2 r k))
        (broadcastInDim S50000x128 ![0, 1] bcast_S1x128_S50000x128_0_1
          (broadcastInDim S1x128 ![1] bcast_S128_S1x128_1 b) (ix2 r k)))
      (broadcastInDim S50000x128 ![] bcast_S_S50000x128 (constant (F := Ideal) S_ .f32 0x00000000#32) (ix2 r k))
      * w (ix2 k q) = _
  rw [bias_rows_apply b bcast_S128_S1x128_1 bcast_S1x128_S50000x128_0_1 r k, zero_table_apply r k]

theorem layer3_eq (a : Arr Ideal S50000x64 .f32) (b : Arr Ideal S64 .f32) :
    layer3 (F := Ideal) a b = Cert.Layers.addBias (M := 50000) (N := 64) a b := by
  funext j
  obtain ⟨r, q, rfl⟩ : ∃ (r : Fin 50000) (q : Fin 64), j = ix2 r q := ⟨j 0, j 1, eq_ix2 j⟩
  rw [Cert.Layers.addBias_apply]
  show FloatOps.addf (F := Ideal) (φ := .f32) (a (ix2 r q))
      (broadcastInDim S50000x64 ![0, 1] bcast_S1x64_S50000x64_0_1
        (broadcastInDim S1x64 ![1] bcast_S64_S1x64_1 b) (ix2 r q)) = _
  rw [bias_rows_apply b bcast_S64_S1x64_1 bcast_S1x64_S50000x64_0_1 r q]

end Cert.ReferenceIdeal.Dense

end
-- ==== Proof.RValue.lean ====
/-
  The reference's result array is the graph convolution of its arguments, and its run.

  The reference's run leaves every buffer at the fold of its operations over the launch memory. Read at the result
  buffer, the fold is the three dense stages interleaved with the two aggregations; each dense stage is the
  corresponding layer entry by entry; so the result is the graph convolution of the launch memory's argument
  arrays. No operation writes an argument array, so the arguments end as launched.
-/
import proofs.«173267_j79946521248145_1_alg».proof.Proof.RefOps
import proofs.«173267_j79946521248145_1_alg».proof.Proof.RefStretches
import proofs.«173267_j79946521248145_1_alg».proof.Proof.RefLayers
import proofs.«173267_j79946521248145_1_alg».proof.Proof.Gcn

noncomputable section

namespace Cert.ReferenceIdeal.Result

open Cert.ReferenceIdeal Cert.ReferenceIdeal.RunP Idealize.ShloMosaic Idealize.ShloMosaic.TcCoe Idealize.SL.Sem Idealize.ShloMosaic.StableHlo

/-- From any contents W of the buffers, after all of the reference's operations the result buffer holds the graph
    convolution of W's argument arrays. -/
theorem value (W : Valuation τ sig (Elt Ideal)) :
    StableHlo.after (ops (F := Ideal)) W (Proc.devRef .tc main_v64)
      = Cert.Gcn.gcn (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  rw [Host.ref_read, Dense.layer1_eq, Dense.layer2_eq, Dense.layer3_eq]
  rfl

set_option maxRecDepth 8192 in
set_option maxHeartbeats 4000000 in
/-- Every weakly fair execution of the reference terminates, nothing faulting, with the result array at the graph
    convolution of the launch memory's argument arrays and every argument array as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64)
          = Cert.Gcn.gcn (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v64).trans (value (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_after m ρ)

end Cert.ReferenceIdeal.Result

end
-- ==== Proof.lean ====
/-
  The certificate of the two-layer graph convolution kernel against its reference.

  The kernel computes the network's three dense stages in three tiled regions — the features times the first weight
  table a block of 5000 rows at a time; bias, clamp at zero and the second weight table, the same way; the last bias
  10000 rows at a time — and leaves the two edge aggregations between them to host operations; the reference applies
  the same host operations around whole-table products. At the extended reals a product computed a block of rows at
  a time holds the same sums as the whole product, a change of float format is the identity, and the aggregations
  are the same functions of the same tables, so both programs end with their result at one function of the
  arguments, `Cert.Gcn.gcn`. No law that fails at infinities is used, so the precondition is never opened.

  The three frames: the kernel's two are the generated frame certificates; the reference's is its run with the
  result dropped. The idealization rewrote nothing, so `preserves` has nothing to state.
-/
import proofs.«173267_j79946521248145_1_alg».proof.Defs
import proofs.«173267_j79946521248145_1_alg».proof.Proof.Gen.Kernel
import proofs.«173267_j79946521248145_1_alg».proof.Proof.Gen.Kernel.Frame
import proofs.«173267_j79946521248145_1_alg».proof.Proof.Gen.KernelIdeal
import proofs.«173267_j79946521248145_1_alg».proof.Proof.Gen.KernelIdeal.Frame
import proofs.«173267_j79946521248145_1_alg».proof.Proof.Gen.ReferenceIdeal
import proofs.«173267_j79946521248145_1_alg».proof.Proof.Gen.Pre_finite_inputs
import proofs.«173267_j79946521248145_1_alg».proof.Proof.KernelRun
import proofs.«173267_j79946521248145_1_alg».proof.Proof.KValue
import proofs.«173267_j79946521248145_1_alg».proof.Proof.RValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Result.run m ρ)

/-- Both idealized programs, from memories agreeing on the arguments, end with their result arrays at the graph
    convolution of the arguments: the kernel's by its run walked back through its regions and stretches, the
    reference's by its run read a stretch at a time. -/
theorem algebraic : Cert.algebraic_KernelIdeal_ReferenceIdeal := by
  intro m ρ m' ρ' _ hagree
  refine ⟨fun c => Cert.Gcn.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Value.result m ρ c), (h c).2⟩)
      (Cert.KernelIdeal.Named.run_named (F := Ideal) m ρ)
  · refine (θ_run Cert.ReferenceIdeal.defs _ _).mono (fun _ h c => ⟨?_, (h c).2⟩)
      (Cert.ReferenceIdeal.Result.run m' ρ')
    rw [(h c).1, (hagree c).1, (hagree c).2.1, (hagree c).2.2.1, (hagree c).2.2.2.1, (hagree c).2.2.2.2.1,
      (hagree c).2.2.2.2.2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
